-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part4 {F : FTy → Type} [FloatOps F] (main_arg15 : FVec F S32 .f32) (main_v63 : IVec S_ 1) (main_v67 : IVec S_ 1) : IVec S_ 1 :=
  let main_v68 : IVec S_ 1 := andi main_v63 main_v67
  let main_v69 : FVec F S32 .f32 := Host.absf main_arg15
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  main_v73

def fn_part3 {F : FTy → Type} [FloatOps F] (main_arg12 : FVec F S64 .f32) (main_arg13 : FVec F S64x64 .f32) (main_arg14 : FVec F S64x32 .f32) (main_arg15 : FVec F S32 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg13
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64x32 .f32 := Host.absf main_arg14
  let main_cst_24 : FVec F S_ .f32 := constant S_ .f32 0x7F800000#32
  let main_v65 : FVec F S64x32 .f32 := broadcastInDim S64x32 ![] bcast_S_S64x32 main_cst_24
  let main_v66 : IVec S64x32 1 := cmpf .olt main_v64 main_v65
  let main_c_25 : IVec S_ 1 := constantI S_ 1 1#1
  let main_v67 : IVec S_ 1 := (fun x v => Host.reduce IntOp.andi x v reducesTo_S64x32_S_d0_1 h_S_) main_v66 main_c_25
  fn_part4 (F := F) main_arg15 main_v63 main_v67

def fn_part2 {F : FTy → Type} [FloatOps F] (main_arg8 : FVec F S64x64 .f32) (main_arg9 : FVec F S64 .f32) (main_arg10 : FVec F S64x64 .f32) (main_arg11 : FVec F S64x64 .f32) (main_arg12 : FVec F S64 .f32) (main_arg13 : FVec F S64x64 .f32) (main_arg14 : FVec F S64x32 .f32) (main_arg15 : FVec F S32 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg12 main_arg13 main_arg14 main_arg15 main_v48 main_v49 main_v50

def fn_part1 {F : FTy → Type} [FloatOps F] (main_arg5 : FVec F S64x64 .f32) (main_arg6 : FVec F S64 .f32) (main_arg7 : FVec F S64x64 .f32) (main_arg8 : FVec F S64x64 .f32) (main_arg9 : FVec F S64 .f32) (main_arg10 : FVec F S64x64 .f32) (main_arg11 : FVec F S64x64 .f32) (main_arg12 : FVec F S64 .f32) (main_arg13 : FVec F S64x64 .f32) (main_arg14 : FVec F S64x32 .f32) (main_arg15 : FVec F S32 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S50000x128 .f32) (main_arg1 : IVec S2x1600000 32) (main_arg2 : FVec F S128x64 .f32) (main_arg3 : FVec F S64 .f32) (main_arg4 : FVec F S128x64 .f32) (main_arg5 : FVec F S64x64 .f32) (main_arg6 : FVec F S64 .f32) (main_arg7 : FVec F S64x64 .f32) (main_arg8 : FVec F S64x64 .f32) (main_arg9 : FVec F S64 .f32) (main_arg10 : FVec F S64x64 .f32) (main_arg11 : FVec F S64x64 .f32) (main_arg12 : FVec F S64 .f32) (main_arg13 : FVec F S64x64 .f32) (main_arg14 : FVec F S64x32 .f32) (main_arg15 : FVec F S32 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x128 : Shape := ⟨2, ![50000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S50000x1 : Shape := ⟨2, ![50000, 1]⟩
abbrev S1600000x128 : Shape := ⟨2, ![1600000, 128]⟩
abbrev S1x64 : Shape := ⟨2, ![1, 64]⟩
abbrev S50000x64 : Shape := ⟨2, ![50000, 64]⟩
abbrev S2000x128 : Shape := ⟨2, ![2000, 128]⟩
abbrev S2000x1 : Shape := ⟨2, ![2000, 1]⟩
abbrev S2000x64 : Shape := ⟨2, ![2000, 64]⟩
abbrev S1600000x64 : Shape := ⟨2, ![1600000, 64]⟩
abbrev S1x32 : Shape := ⟨2, ![1, 32]⟩
abbrev S50000x32 : Shape := ⟨2, ![50000, 32]⟩
abbrev S2000x32 : Shape := ⟨2, ![2000, 32]⟩

abbrev nBuf : Space → Nat
  | .hbm => 88
  | .vmem => 50
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64x32, .f32⟩
  | .hbm, ⟨15, _⟩ => ⟨S32, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S_, .f32⟩
  | .hbm, ⟨21, _⟩ => ⟨S1600000x1, .f32⟩
  | .hbm, ⟨22, _⟩ => ⟨S_, .f32⟩
  | .hbm, ⟨23, _⟩ => ⟨S50000x1, .f32⟩
  | .hbm, ⟨24, _⟩ => ⟨S1600000x1, .i32⟩
  | .hbm, ⟨25, _⟩ => ⟨S50000x1, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S_, .f32⟩
  | .hbm, ⟨36, _⟩ => ⟨S50000x128, .f32⟩
  | .hbm, ⟨37, _⟩ => ⟨S1600000x1, .i32⟩
  | .hbm, ⟨38, _⟩ => ⟨S50000x128, .f32⟩
  | .hbm, ⟨39, _⟩ => ⟨S1x64, .f32⟩
  | .hbm, ⟨40, _⟩ => ⟨S50000x64, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x64, .f32⟩
  | .hbm, ⟨50, _⟩ => ⟨S_, .f32⟩
  | .hbm, ⟨51, _⟩ => ⟨S50000x64, .f32⟩
  | .hbm, ⟨52, _⟩ => ⟨S1600000x1, .i32⟩
  | .hbm, ⟨53, _⟩ => ⟨S50000x64, .f32⟩
  | .hbm, ⟨54, _⟩ => ⟨S1x64, .f32⟩
  | .hbm, ⟨55, _⟩ => ⟨S50000x64, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x64, .f32⟩
  | .hbm, ⟨65, _⟩ => ⟨S_, .f32⟩
  | .hbm, ⟨66, _⟩ => ⟨S50000x64, .f32⟩
  | .hbm, ⟨67, _⟩ => ⟨S1600000x1, .i32⟩
  | .hbm, ⟨68, _⟩ => ⟨S50000x64, .f32⟩
  | .hbm, ⟨69, _⟩ => ⟨S1x64, .f32⟩
  | .hbm, ⟨70, _⟩ => ⟨S50000x64, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x64, .f32⟩
  | .hbm, ⟨80, _⟩ => ⟨S_, .f32⟩
  | .hbm, ⟨81, _⟩ => ⟨S50000x64, .f32⟩
  | .hbm, ⟨82, _⟩ => ⟨S1600000x1, .i32⟩
  | .hbm, ⟨83, _⟩ => ⟨S50000x64, .f32⟩
  | .hbm, ⟨84, _⟩ => ⟨S1x64, .f32⟩
  | .hbm, ⟨85, _⟩ => ⟨S50000x64, .f32⟩
  | .hbm, ⟨86, _⟩ => ⟨S1x32, .f32⟩
  | .hbm, ⟨87, _⟩ => ⟨S50000x32, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S128x64, .f32⟩
  | .local _ .vmem, ⟨7, _⟩ => ⟨S1x64, .f32⟩
  | .local _ .vmem, ⟨8, _⟩ => ⟨S128x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x1, .f32⟩
  | .local _ .vmem, ⟨14, _⟩ => ⟨S2000x1, .f32⟩
  | .local _ .vmem, ⟨15, _⟩ => ⟨S2000x64, .f32⟩
  | .local _ .vmem, ⟨16, _⟩ => ⟨S2000x64, .f32⟩
  | .local _ .vmem, ⟨17, _⟩ => ⟨S64x64, .f32⟩
  | .local _ .vmem, ⟨18, _⟩ => ⟨S1x64, .f32⟩
  | .local _ .vmem, ⟨19, _⟩ => ⟨S64x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S2000x1, .f32⟩
  | .local _ .vmem, ⟨25, _⟩ => ⟨S2000x1, .f32⟩
  | .local _ .vmem, ⟨26, _⟩ => ⟨S2000x64, .f32⟩
  | .local _ .vmem, ⟨27, _⟩ => ⟨S2000x64, .f32⟩
  | .local _ .vmem, ⟨28, _⟩ => ⟨S64x64, .f32⟩
  | .local _ .vmem, ⟨29, _⟩ => ⟨S1x64, .f32⟩
  | .local _ .vmem, ⟨30, _⟩ => ⟨S64x64, .f32⟩
  | .local _ .vmem, ⟨31, _⟩ => ⟨S2000x64, .f32⟩
  | .local _ .vmem, ⟨32, _⟩ => ⟨S2000x64, .f32⟩
  | .local _ .vmem, ⟨33, _⟩ => ⟨S2000x64, .f32⟩
  | .local _ .vmem, ⟨34, _⟩ => ⟨S2000x64, .f32⟩
  | .local _ .vmem, ⟨35, _⟩ => ⟨S2000x1, .f32⟩
  | .local _ .vmem, ⟨36, _⟩ => ⟨S2000x1, .f32⟩
  | .local _ .vmem, ⟨37, _⟩ => ⟨S2000x64, .f32⟩
  | .local _ .vmem, ⟨38, _⟩ => ⟨S2000x64, .f32⟩
  | .local _ .vmem, ⟨39, _⟩ => ⟨S64x64, .f32⟩
  | .local _ .vmem, ⟨40, _⟩ => ⟨S1x64, .f32⟩
  | .local _ .vmem, ⟨41, _⟩ => ⟨S64x64, .f32⟩
  | .local _ .vmem, ⟨42, _⟩ => ⟨S2000x64, .f32⟩
  | .local _ .vmem, ⟨43, _⟩ => ⟨S2000x64, .f32⟩
  | .local _ .vmem, ⟨44, _⟩ => ⟨S2000x64, .f32⟩
  | .local _ .vmem, ⟨45, _⟩ => ⟨S2000x64, .f32⟩
  | .local _ .vmem, ⟨46, _⟩ => ⟨S64x32, .f32⟩
  | .local _ .vmem, ⟨47, _⟩ => ⟨S1x32, .f32⟩
  | .local _ .vmem, ⟨48, _⟩ => ⟨S2000x32, .f32⟩
  | .local _ .vmem, ⟨49, _⟩ => ⟨S2000x32, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c : Ref sig .tc := ⟨.hbm, 26, rfl⟩
abbrev main_v8 : Ref sig .tc := ⟨.hbm, 27, rfl⟩
abbrev main_v9 : Ref sig .tc := ⟨.hbm, 28, rfl⟩
abbrev main_c_1 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_3 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_5 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_6 : Ref sig .tc := ⟨.hbm, 56, rfl⟩
abbrev main_v32 : Ref sig .tc := ⟨.hbm, 57, rfl⟩
abbrev main_v33 : Ref sig .tc := ⟨.hbm, 58, rfl⟩
abbrev main_c_7 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_8 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_c_9 : Ref sig .tc := ⟨.hbm, 71, rfl⟩
abbrev main_v44 : Ref sig .tc := ⟨.hbm, 72, rfl⟩
abbrev main_v45 : Ref sig .tc := ⟨.hbm, 73, rfl⟩
abbrev main_c_10 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_11 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg2_0 : Ref sig .tc := ⟨.vmem, 47, rfl⟩
abbrev cc4_stg3_0 : Ref sig .tc := ⟨.vmem, 48, rfl⟩
abbrev cc4_stg3_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43
abbrev cc4_sem0_0 : DmaSem sig := 44
abbrev cc4_sem0_1 : DmaSem sig := 45
abbrev cc4_sem1_0 : DmaSem sig := 46
abbrev cc4_sem2_0 : DmaSem sig := 47
abbrev cc4_sem3_0 : DmaSem sig := 48
abbrev cc4_sem3_1 : DmaSem sig := 49

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000x1 : S_.BroadcastsInDim S1600000x1 (![] : Fin 0 → Fin S1600000x1.rank)
  bcast_S_S50000x1 : S_.BroadcastsInDim S50000x1 (![] : Fin 0 → Fin S50000x1.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S50000x128 : S_.BroadcastsInDim S50000x128 (![] : Fin 0 → Fin S50000x128.rank)
  shapeCasts_S64_S1x64 : S64.ShapeCasts S1x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S_S50000x64 : S_.BroadcastsInDim S50000x64 (![] : Fin 0 → Fin S50000x64.rank)
  shapeCasts_S2000x64_S2000x64 : S2000x64.ShapeCasts S2000x64
  broadcasts_S2000x1_S2000x64 : S2000x1.Broadcasts S2000x64
  inb_S64x64_S64x64_0_0 : ∀ a, (![0, 0] : Fin 2 → Nat) a + S64x64.size a ≤ S64x64.size a
  h_S64x64 : 0 < S64x64.numel
  shapeCasts_S32_S1x32 : S32.ShapeCasts S1x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S2000x32_S2000x32_0_0 : ∀ a, (![0, 0] : Fin 2 → Nat) a + S2000x32.size a ≤ S2000x32.size a
  h_S2000x32 : 0 < S2000x32.numel
  scatter_S50000x1_S1600000x1_S1600000x1_1_0_0_1_wf : ScatterDims.WF S50000x1 S1600000x1 S1600000x1 [1] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S2000x128_S128x64_S2000x64_1_0_0_1_n_n_wf : DotDims.WF S2000x128 S128x64 S2000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S2000x64_S64x64_S2000x64_1_0_0_1_n_n_wf : DotDims.WF S2000x64 S64x64 S2000x64 [1] [0] [0] [1] [] []
  dot_S2000x64_S64x32_S2000x32_1_0_0_1_n_n_wf : DotDims.WF S2000x64 S64x32 S2000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x64.size a ≤ S50000x64.size a
  hwx0_6 : ∀ i : grid0.Coords, EltTy.bits .f32 = 32 ∨ (Rect.block (s := S50000x64) S2000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x64.size a ≤ S50000x64.size a
  hwx1_6 : ∀ i : grid1.Coords, EltTy.bits .f32 = 32 ∨ (Rect.block (s := S50000x64) S2000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x64.size a ≤ S50000x64.size a
  hwx2_6 : ∀ i : grid2.Coords, EltTy.bits .f32 = 32 ∨ (Rect.block (s := S50000x64) S2000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S50000x64.size a
  hwx3_2 : ∀ i : grid3.Coords, EltTy.bits .f32 = 32 ∨ (Rect.block (s := S50000x64) S2000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x64.size a ≤ S50000x64.size a
  hwx3_6 : ∀ i : grid3.Coords, EltTy.bits .f32 = 32 ∨ (Rect.block (s := S50000x64) S2000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .f32 = 32 ∨ (Rect.block (s := S64x32) S64x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x32.size a ≤ S50000x32.size a
  hwx4_3 : ∀ i : grid4.Coords, EltTy.bits .f32 = 32 ∨ (Rect.block (s := S50000x32) S2000x32.size (cc4_transform_3 i) (hinb4_3 i)).WholeWords (EltTy.packing .f32)

variable [Facts₀]

def scatter_S50000x1_S1600000x1_S1600000x1_1_0_0_1 : ScatterDims S50000x1 S1600000x1 S1600000x1 where
  updateWindowDims := [1]
  insertedWindowDims := [0]
  scatterDimsToOperandDims := [0]
  indexVectorDim := 1
  wf := scatter_S50000x1_S1600000x1_S1600000x1_1_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf

abbrev win0_0 : Pipeline.Window sig grid0 :=
  Pipeline.Window.ofSpec (Memref.whole main_v17) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S2000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v29) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31) S2000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v41) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v31) S2000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v43) S2000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v53) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v7) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v43) S2000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v54) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg13) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v55) S2000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v55) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg14) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v56) S1x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v57) S2000x32.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S50000x1 : Shape := ⟨2, ![50000, 1]⟩
abbrev S50000x64 : Shape := ⟨2, ![50000, 64]⟩
abbrev S1x64 : Shape := ⟨2, ![1, 64]⟩
abbrev S1600000x64 : Shape := ⟨2, ![1600000, 64]⟩
abbrev S50000x32 : Shape := ⟨2, ![50000, 32]⟩
abbrev S1x32 : Shape := ⟨2, ![1, 32]⟩

abbrev nBuf : Space → Nat
  | .hbm => 153
  | .vmem => 0
  | .smem => 0
  | _ => 0

abbrev hbmTy0_0 (i : Nat) : BufTy := match i % 128 with
  | 0 => ⟨S50000x128, .f32⟩
  | 1 => ⟨S2x1600000, .i32⟩
  | 2 => ⟨S128x64, .f32⟩
  | 3 => ⟨S64, .f32⟩
  | 4 => ⟨S128x64, .f32⟩
  | 5 => ⟨S64x64, .f32⟩
  | 6 => ⟨S64, .f32⟩
  | 7 => ⟨S64x64, .f32⟩
  | 8 => ⟨S64x64, .f32⟩
  | 9 => ⟨S64, .f32⟩
  | 10 => ⟨S64x64, .f32⟩
  | 11 => ⟨S64x64, .f32⟩
  | 12 => ⟨S64, .f32⟩
  | 13 => ⟨S64x64, .f32⟩
  | 14 => ⟨S64x32, .f32⟩
  | 15 => ⟨S32, .f32⟩
  | 16 => ⟨S1x1600000, .i32⟩
  | 17 => ⟨S1600000, .i32⟩
  | 18 => ⟨S1x1600000, .i32⟩
  | 19 => ⟨S1600000, .i32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000x128, .f32⟩
  | 29 => ⟨S_, .f32⟩
  | 30 => ⟨S50000x128, .f32⟩
  | 31 => ⟨S1600000x1, .i32⟩
  | 32 => ⟨S50000x128, .f32⟩
  | 33 => ⟨S_, .f32⟩
  | 34 => ⟨S1600000x1, .f32⟩
  | 35 => ⟨S_, .f32⟩
  | 36 => ⟨S50000x1, .f32⟩
  | 37 => ⟨S1600000x1, .i32⟩
  | 38 => ⟨S50000x1, .f32⟩
  | 39 => ⟨S_, .f32⟩
  | 40 => ⟨S50000x1, .f32⟩
  | 41 => ⟨S50000x1, .f32⟩
  | 42 => ⟨S50000x128, .f32⟩
  | 43 => ⟨S50000x128, .f32⟩
  | 44 => ⟨S50000x64, .f32⟩
  | 45 => ⟨S1x64, .f32⟩
  | 46 => ⟨S50000x64, .f32⟩
  | 47 => ⟨S50000x64, .f32⟩
  | 48 => ⟨S50000x64, .f32⟩
  | 49 => ⟨S50000x64, .f32⟩
  | 50 => ⟨S_, .f32⟩
  | 51 => ⟨S50000x64, .f32⟩
  | 52 => ⟨S50000x64, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x64, .f32⟩
  | 62 => ⟨S_, .f32⟩
  | 63 => ⟨S50000x64, .f32⟩
  | 64 => ⟨S1600000x1, .i32⟩
  | 65 => ⟨S50000x64, .f32⟩
  | 66 => ⟨S_, .f32⟩
  | 67 => ⟨S1600000x1, .f32⟩
  | 68 => ⟨S_, .f32⟩
  | 69 => ⟨S50000x1, .f32⟩
  | 70 => ⟨S1600000x1, .i32⟩
  | 71 => ⟨S50000x1, .f32⟩
  | 72 => ⟨S_, .f32⟩
  | 73 => ⟨S50000x1, .f32⟩
  | 74 => ⟨S50000x1, .f32⟩
  | 75 => ⟨S50000x64, .f32⟩
  | 76 => ⟨S50000x64, .f32⟩
  | 77 => ⟨S50000x64, .f32⟩
  | 78 => ⟨S1x64, .f32⟩
  | 79 => ⟨S50000x64, .f32⟩
  | 80 => ⟨S50000x64, .f32⟩
  | 81 => ⟨S50000x64, .f32⟩
  | 82 => ⟨S50000x64, .f32⟩
  | 83 => ⟨S_, .f32⟩
  | 84 => ⟨S50000x64, .f32⟩
  | 85 => ⟨S50000x64, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S1600000x64, .f32⟩
  | 95 => ⟨S_, .f32⟩
  | 96 => ⟨S50000x64, .f32⟩
  | 97 => ⟨S1600000x1, .i32⟩
  | 98 => ⟨S50000x64, .f32⟩
  | 99 => ⟨S_, .f32⟩
  | 100 => ⟨S1600000x1, .f32⟩
  | 101 => ⟨S_, .f32⟩
  | 102 => ⟨S50000x1, .f32⟩
  | 103 => ⟨S1600000x1, .i32⟩
  | 104 => ⟨S50000x1, .f32⟩
  | 105 => ⟨S_, .f32⟩
  | 106 => ⟨S50000x1, .f32⟩
  | 107 => ⟨S50000x1, .f32⟩
  | 108 => ⟨S50000x64, .f32⟩
  | 109 => ⟨S50000x64, .f32⟩
  | 110 => ⟨S50000x64, .f32⟩
  | 111 => ⟨S1x64, .f32⟩
  | 112 => ⟨S50000x64, .f32⟩
  | 113 => ⟨S50000x64, .f32⟩
  | 114 => ⟨S50000x64, .f32⟩
  | 115 => ⟨S50000x64, .f32⟩
  | 116 => ⟨S_, .f32⟩
  | 117 => ⟨S50000x64, .f32⟩
  | 118 => ⟨S50000x64, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000x64, .f32⟩
  | _ => ⟨S50000x128, .f32⟩

abbrev hbmTy0_1 (i : Nat) : BufTy := match i % 128 with
  | 0 => ⟨S_, .f32⟩
  | 1 => ⟨S50000x64, .f32⟩
  | 2 => ⟨S1600000x1, .i32⟩
  | 3 => ⟨S50000x64, .f32⟩
  | 4 => ⟨S_, .f32⟩
  | 5 => ⟨S1600000x1, .f32⟩
  | 6 => ⟨S_, .f32⟩
  | 7 => ⟨S50000x1, .f32⟩
  | 8 => ⟨S1600000x1, .i32⟩
  | 9 => ⟨S50000x1, .f32⟩
  | 10 => ⟨S_, .f32⟩
  | 11 => ⟨S50000x1, .f32⟩
  | 12 => ⟨S50000x1, .f32⟩
  | 13 => ⟨S50000x64, .f32⟩
  | 14 => ⟨S50000x64, .f32⟩
  | 15 => ⟨S50000x64, .f32⟩
  | 16 => ⟨S1x64, .f32⟩
  | 17 => ⟨S50000x64, .f32⟩
  | 18 => ⟨S50000x64, .f32⟩
  | 19 => ⟨S50000x64, .f32⟩
  | 20 => ⟨S50000x64, .f32⟩
  | 21 => ⟨S50000x32, .f32⟩
  | 22 => ⟨S1x32, .f32⟩
  | 23 => ⟨S50000x32, .f32⟩
  | 24 => ⟨S50000x32, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_call0_cst : Ref sig .tc := ⟨.hbm, 50, rfl⟩
abbrev main_call0_v0 : Ref sig .tc := ⟨.hbm, 51, rfl⟩
abbrev main_v28 : Ref sig .tc := ⟨.hbm, 52, rfl⟩
abbrev main_c_4 : Ref sig .tc := ⟨.hbm, 53, rfl⟩
abbrev main_v29 : Ref sig .tc := ⟨.hbm, 54, rfl⟩
abbrev main_v30 : Ref sig .tc := ⟨.hbm, 55, rfl⟩
abbrev main_c_5 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_6 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_7 : Ref sig .tc := ⟨.hbm, 66, rfl⟩
abbrev main_v39 : Ref sig .tc := ⟨.hbm, 67, rfl⟩
abbrev main_cst_8 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_call1_cst : Ref sig .tc := ⟨.hbm, 83, rfl⟩
abbrev main_call1_v0 : Ref sig .tc := ⟨.hbm, 84, rfl⟩
abbrev main_v53 : Ref sig .tc := ⟨.hbm, 85, rfl⟩
abbrev main_c_10 : Ref sig .tc := ⟨.hbm, 86, rfl⟩
abbrev main_v54 : Ref sig .tc := ⟨.hbm, 87, rfl⟩
abbrev main_v55 : Ref sig .tc := ⟨.hbm, 88, rfl⟩
abbrev main_c_11 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_12 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_13 : Ref sig .tc := ⟨.hbm, 99, rfl⟩
abbrev main_v64 : Ref sig .tc := ⟨.hbm, 100, rfl⟩
abbrev main_cst_14 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_15 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_call2_cst : Ref sig .tc := ⟨.hbm, 116, rfl⟩
abbrev main_call2_v0 : Ref sig .tc := ⟨.hbm, 117, rfl⟩
abbrev main_v78 : Ref sig .tc := ⟨.hbm, 118, rfl⟩
abbrev main_c_16 : Ref sig .tc := ⟨.hbm, 119, rfl⟩
abbrev main_v79 : Ref sig .tc := ⟨.hbm, 120, rfl⟩
abbrev main_v80 : Ref sig .tc := ⟨.hbm, 121, rfl⟩
abbrev main_c_17 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_cst_18 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_cst_19 : Ref sig .tc := ⟨.hbm, 132, rfl⟩
abbrev main_v89 : Ref sig .tc := ⟨.hbm, 133, rfl⟩
abbrev main_cst_20 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_cst_21 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S1600000x1 : S_.BroadcastsInDim S1600000x1 (![] : Fin 0 → Fin S1600000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000x1_S1600000x1_S1600000x1_1_0_0_1_wf : ScatterDims.WF S50000x1 S1600000x1 S1600000x1 [1] [0] [0] 1
  dot_S50000x128_S128x64_S50000x64_1_0_0_1_n_n_wf : DotDims.WF S50000x128 S128x64 S50000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S50000x64_S64x64_S50000x64_1_0_0_1_n_n_wf : DotDims.WF S50000x64 S64x64 S50000x64 [1] [0] [0] [1] [] []
  dot_S50000x64_S64x32_S50000x32_1_0_0_1_n_n_wf : DotDims.WF S50000x64 S64x32 S50000x32 [1] [0] [0] [1] [] []

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000x1_S1600000x1_S1600000x1_1_0_0_1 : ScatterDims S50000x1 S1600000x1 S1600000x1 where
  updateWindowDims := [1]
  insertedWindowDims := [0]
  scatterDimsToOperandDims := [0]
  indexVectorDim := 1
  wf := scatter_S50000x1_S1600000x1_S1600000x1_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf

class Facts : Prop extends Facts₀ where

variable [Facts]
-- ==== Proof.KernelRun.lean ====
/-
  The idealized kernel's run with its result named. Every weakly fair execution of @main terminates without a fault,
  the sixteen argument arrays end as launched, and the result array ends at the last boundary's contents: the fold
  through @main's five stretches of host operations and five regions, read at the result's buffer. (The terminating,
  fault-free run over the ten segments is the launch theorem of the several-region library applied as for the frame
  claim; here the final thread state is also read at the result's buffer.)
-/
import proofs.«145187_j38766374814022_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the result array at the last boundary's contents, the arguments as launched. -/
theorem run : θ_run defs (onTc (τ := τ) (main (F := F))) ⟨m, fun _ => 0, ρ⟩ (fun r => ∀ c : Dev nD,
      r.2.mem ((c.tc : Thread nD τ).loc main_v57) = W10 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v57 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c)⟩)

end Cert.KernelIdeal.RunValue

end
-- ==== Proof.SageSpec.lean ====
/-
  What one layer computes, entry by entry, on the extended reals.

  A layer takes, for N nodes with D features, the neighbour sums `ssum` (N×D), the neighbour counts `cnt`
  (N×1), the node features `h` (N×D), two D×O matrices `Wl`, `Wr` and a bias row `b` (1×O). Entry (r, q) of
  its result is

      Σ_k (ssum(r,k) / max(cnt(r,0), 1)) · Wl(k,q)  +  Σ_k h(r,k) · Wr(k,q)  +  b(0,q),

  clamped below at 0 where the layer ends in a rectifier. The last stage is a plain affine map
  Σ_k h(r,k) · W(k,q) + b(0,q). The literals 1 and 0 are kept as the binary words the programs carry.
-/
import Idealize.ShloMosaic.PureOps.Ideal
import Idealize.ShloMosaic.Lib.ValueIdx

noncomputable section

open scoped BigOperators

namespace Cert.Sage

open Idealize.ShloMosaic Idealize.ShloMosaic.ValueIdx

/-- An a×b array of extended reals. -/
abbrev Mat (a b : Nat) : Type := (⟨2, ![a, b]⟩ : Shape).Idx → EReal

/-- The word of 1.0. -/
abbrev one : EReal := Ideal.ofBits .f32 0x3F800000#32
/-- The word of 0.0. -/
abbrev zero : EReal := Ideal.ofBits .f32 0x00000000#32

/-- The mean of the neighbours' feature k at node r: the sum over the count, the count clamped below at 1. -/
def meanAt {N D : Nat} (ssum : Mat N D) (cnt : Mat N 1) (r : Fin N) (k : Fin D) : EReal :=
  Ideal.div (ssum (ix2 r k)) (max (cnt (ix2 r (0 : Fin 1))) one)

/-- Entry (r, q) of a layer before its rectifier: the neighbour product, the self product, the bias. -/
def layerAt {N D O : Nat} (ssum : Mat N D) (cnt : Mat N 1) (h : Mat N D) (Wl : Mat D O) (b : Mat 1 O) (Wr : Mat D O)
    (r : Fin N) (q : Fin O) : EReal :=
  ((∑ k : Fin D, meanAt ssum cnt r k * Wl (ix2 k q)) + ∑ k : Fin D, h (ix2 r k) * Wr (ix2 k q)) + b (ix2 (0 : Fin 1) q)

/-- A layer without rectifier, as one array. -/
def layer {N D O : Nat} (ssum : Mat N D) (cnt : Mat N 1) (h : Mat N D) (Wl : Mat D O) (b : Mat 1 O) (Wr : Mat D O) : Mat N O :=
  fun i => layerAt ssum cnt h Wl b Wr (i 0) (i 1)

/-- A layer followed by the rectifier max(·, 0), as one array. -/
def layerRelu {N D O : Nat} (ssum : Mat N D) (cnt : Mat N 1) (h : Mat N D) (Wl : Mat D O) (b : Mat 1 O) (Wr : Mat D O) : Mat N O :=
  fun i => max (layerAt ssum cnt h Wl b Wr (i 0) (i 1)) zero

/-- Entry (r, q) of the closing affine map. -/
def affineAt {N D O : Nat} (h : Mat N D) (W : Mat D O) (b : Mat 1 O) (r : Fin N) (q : Fin O) : EReal :=
  (∑ k : Fin D, h (ix2 r k) * W (ix2 k q)) + b (ix2 (0 : Fin 1) q)

/-- The closing affine map, as one array. -/
def affine {N D O : Nat} (h : Mat N D) (W : Mat D O) (b : Mat 1 O) : Mat N O :=
  fun i => affineAt h W b (i 0) (i 1)

/-! ### The arrays read at an entry given by its two coordinates -/

theorem layer_ix2 {N D O : Nat} (ssum : Mat N D) (cnt : Mat N 1) (h : Mat N D) (Wl : Mat D O) (b : Mat 1 O) (Wr : Mat D O)
    (r : Fin N) (q : Fin O) : layer ssum cnt h Wl b Wr (ix2 r q) = layerAt ssum cnt h Wl b Wr r q := rfl

theorem layerRelu_ix2 {N D O : Nat} (ssum : Mat N D) (cnt : Mat N 1) (h : Mat N D) (Wl : Mat D O) (b : Mat 1 O) (Wr : Mat D O)
    (r : Fin N) (q : Fin O) : layerRelu ssum cnt h Wl b Wr (ix2 r q) = max (layerAt ssum cnt h Wl b Wr r q) zero := rfl

theorem affine_ix2 {N D O : Nat} (h : Mat N D) (W : Mat D O) (b : Mat 1 O) (r : Fin N) (q : Fin O) :
    affine h W b (ix2 r q) = affineAt h W b r q := rfl

end Cert.Sage

end
-- ==== Proof.BodyOps.lean ====
/-
  The non-pointwise operations of the kernel bodies read at one entry of a 2000-row block, on the extended reals:
  the three matrix products into a zero accumulator as sums over the contracted axis, the count column stretched
  across the feature lanes, and the bias row repeated down the rows.
-/
import proofs.«145187_j38766374814022_1_alg».proof.KernelIdeal
import proofs.«145187_j38766374814022_1_alg».proof.Proof.Gen.KernelIdeal
import Idealize.ShloMosaic.PureOps.Ideal.Laws
import Idealize.ShloMosaic.Lib.ValueIdx
import Idealize.ShloMosaic.Lib.Pipeline.Value

noncomputable section

open scoped BigOperators

namespace Cert.KernelIdeal.BodyOps

open Cert.KernelIdeal Cert.KernelIdeal.Gen Idealize.ShloMosaic Idealize.ShloMosaic.ValueIdx

/-! ### The product S2000x128 × S128x64 read at an entry -/

theorem mm128_lhs0 (i : S2000x64.Idx) (q : dot_S2000x128_S128x64_S2000x64_1_0_0_1_n_n.contr.Idx) : (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem mm128_lhs1 (i : S2000x64.Idx) (q : dot_S2000x128_S128x64_S2000x64_1_0_0_1_n_n.contr.Idx) : (dot_S2000x128_S128x64_S2000x64_1_0_0_1_n_n.lhsIdx i q 1).val = (q ⟨0, by decide⟩).val :=
  dot_S2000x128_S128x64_S2000x64_1_0_0_1_n_n.lhsIdx_val_of_single rfl i q
theorem mm128_rhs0 (i : S2000x64.Idx) (q : dot_S2000x128_S128x64_S2000x64_1_0_0_1_n_n.contr.Idx) : (dot_S2000x128_S128x64_S2000x64_1_0_0_1_n_n.rhsIdx i q 0).val = (q ⟨0, by decide⟩).val :=
  dot_S2000x128_S128x64_S2000x64_1_0_0_1_n_n.rhsIdx_val_of_single rfl i q
theorem mm128_rhs1 (i : S2000x64.Idx) (q : dot_S2000x128_S128x64_S2000x64_1_0_0_1_n_n.contr.Idx) : (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- Into a zero accumulator the matrix product's entry (p, q) is the sum over the one contracted axis of the left
    operand's row p times the right operand's column q. -/
theorem mm128_at {φ₁ φ₂ : FTy} (a : FVec Ideal S2000x128 φ₁) (w : FVec Ideal S128x64 φ₂) (p : Fin 2000) (q : Fin 64) :
    FloatOps.matmul dot_S2000x128_S128x64_S2000x64_1_0_0_1_n_n none a w (constant S2000x64 .f32 0x00000000#32) (ix2 p q)
      = ∑ k : Fin 128, a (ix2 p k) * w (ix2 k q) := by
  rw [Ideal.matmul_constant_zero_apply, ← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx (ix2 p q) ((ValueIdx.contrEquiv1 dot_S2000x128_S128x64_S2000x64_1_0_0_1_n_n 128 rfl rfl).symm k) = ix2 p k := funext fun a => Fin.ext (by
    match a with
    | ⟨0, _⟩ => exact mm128_lhs0 _ _
    | ⟨1, _⟩ => exact (mm128_lhs1 _ _).trans hk)
  have er : dot_S2000x128_S128x64_S2000x64_1_0_0_1_n_n.rhsIdx (ix2 p q) ((ValueIdx.contrEquiv1 dot_S2000x128_S128x64_S2000x64_1_0_0_1_n_n 128 rfl rfl).symm k) = ix2 k q := funext fun a => Fin.ext (by
    match a with
    | ⟨0, _⟩ => exact (mm128_rhs0 _ _).trans hk
    | ⟨1, _⟩ => exact mm128_rhs1 _ _)
  rw [el, er]

/-! ### The product S2000x64 × S64x64 read at an entry -/

theorem mm64_lhs0 (i : S2000x64.Idx) (q : dot_S2000x64_S64x64_S2000x64_1_0_0_1_n_n.contr.Idx) : (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem mm64_lhs1 (i : S2000x64.Idx) (q : dot_S2000x64_S64x64_S2000x64_1_0_0_1_n_n.contr.Idx) : (dot_S2000x64_S64x64_S2000x64_1_0_0_1_n_n.lhsIdx i q 1).val = (q ⟨0, by decide⟩).val :=
  dot_S2000x64_S64x64_S2000x64_1_0_0_1_n_n.lhsIdx_val_of_single rfl i q
theorem mm64_rhs0 (i : S2000x64.Idx) (q : dot_S2000x64_S64x64_S2000x64_1_0_0_1_n_n.contr.Idx) : (dot_S2000x64_S64x64_S2000x64_1_0_0_1_n_n.rhsIdx i q 0).val = (q ⟨0, by decide⟩).val :=
  dot_S2000x64_S64x64_S2000x64_1_0_0_1_n_n.rhsIdx_val_of_single rfl i q
theorem mm64_rhs1 (i : S2000x64.Idx) (q : dot_S2000x64_S64x64_S2000x64_1_0_0_1_n_n.contr.Idx) : (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- Into a zero accumulator the matrix product's entry (p, q) is the sum over the one contracted axis of the left
    operand's row p times the right operand's column q. -/
theorem mm64_at {φ₁ φ₂ : FTy} (a : FVec Ideal S2000x64 φ₁) (w : FVec Ideal S64x64 φ₂) (p : Fin 2000) (q : Fin 64) :
    FloatOps.matmul dot_S2000x64_S64x64_S2000x64_1_0_0_1_n_n none a w (constant S2000x64 .f32 0x00000000#32) (ix2 p q)
      = ∑ k : Fin 64, a (ix2 p k) * w (ix2 k q) := by
  rw [Ideal.matmul_constant_zero_apply, ← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx (ix2 p q) ((ValueIdx.contrEquiv1 dot_S2000x64_S64x64_S2000x64_1_0_0_1_n_n 64 rfl rfl).symm k) = ix2 p k := funext fun a => Fin.ext (by
    match a with
    | ⟨0, _⟩ => exact mm64_lhs0 _ _
    | ⟨1, _⟩ => exact (mm64_lhs1 _ _).trans hk)
  have er : dot_S2000x64_S64x64_S2000x64_1_0_0_1_n_n.rhsIdx (ix2 p q) ((ValueIdx.contrEquiv1 dot_S2000x64_S64x64_S2000x64_1_0_0_1_n_n 64 rfl rfl).symm k) = ix2 k q := funext fun a => Fin.ext (by
    match a with
    | ⟨0, _⟩ => exact (mm64_rhs0 _ _).trans hk
    | ⟨1, _⟩ => exact mm64_rhs1 _ _)
  rw [el, er]

/-! ### The product S2000x64 × S64x32 read at an entry -/

theorem mm32_lhs0 (i : S2000x32.Idx) (q : dot_S2000x64_S64x32_S2000x32_1_0_0_1_n_n.contr.Idx) : (dot_S2000x64_S64x32_S2000x32_1_0_0_1_n_n.lhsIdx i q 0).val = (i 0).val := by
  unfold DotDims.lhsIdx
  rw [dif_neg (show ¬(0 : Fin S2000x64.rank) ∈ dot_S2000x64_S64x32_S2000x32_1_0_0_1_n_n.lhsBatch by decide), dif_pos (show (0 : Fin S2000x64.rank) ∈ dot_S2000x64_S64x32_S2000x32_1_0_0_1_n_n.lhsNonContracting by decide)]
  rfl
theorem mm32_lhs1 (i : S2000x32.Idx) (q : dot_S2000x64_S64x32_S2000x32_1_0_0_1_n_n.contr.Idx) : (dot_S2000x64_S64x32_S2000x32_1_0_0_1_n_n.lhsIdx i q 1).val = (q ⟨0, by decide⟩).val :=
  dot_S2000x64_S64x32_S2000x32_1_0_0_1_n_n.lhsIdx_val_of_single rfl i q
theorem mm32_rhs0 (i : S2000x32.Idx) (q : dot_S2000x64_S64x32_S2000x32_1_0_0_1_n_n.contr.Idx) : (dot_S2000x64_S64x32_S2000x32_1_0_0_1_n_n.rhsIdx i q 0).val = (q ⟨0, by decide⟩).val :=
  dot_S2000x64_S64x32_S2000x32_1_0_0_1_n_n.rhsIdx_val_of_single rfl i q
theorem mm32_rhs1 (i : S2000x32.Idx) (q : dot_S2000x64_S64x32_S2000x32_1_0_0_1_n_n.contr.Idx) : (dot_S2000x64_S64x32_S2000x32_1_0_0_1_n_n.rhsIdx i q 1).val = (i 1).val := by
  unfold DotDims.rhsIdx
  rw [dif_neg (show ¬(1 : Fin S64x32.rank) ∈ dot_S2000x64_S64x32_S2000x32_1_0_0_1_n_n.rhsBatch by decide), dif_pos (show (1 : Fin S64x32.rank) ∈ dot_S2000x64_S64x32_S2000x32_1_0_0_1_n_n.rhsNonContracting by decide)]
  rfl

/-- Into a zero accumulator the matrix product's entry (p, q) is the sum over the one contracted axis of the left
    operand's row p times the right operand's column q. -/
theorem mm32_at {φ₁ φ₂ : FTy} (a : FVec Ideal S2000x64 φ₁) (w : FVec Ideal S64x32 φ₂) (p : Fin 2000) (q : Fin 32) :
    FloatOps.matmul dot_S2000x64_S64x32_S2000x32_1_0_0_1_n_n none a w (constant S2000x32 .f32 0x00000000#32) (ix2 p q)
      = ∑ k : Fin 64, a (ix2 p k) * w (ix2 k q) := by
  rw [Ideal.matmul_constant_zero_apply, ← Equiv.sum_comp (ValueIdx.contrEquiv1 dot_S2000x64_S64x32_S2000x32_1_0_0_1_n_n 64 rfl rfl).symm]
  refine Finset.sum_congr rfl fun k _ => ?_
  have hk := ValueIdx.contrEquiv1_symm_val dot_S2000x64_S64x32_S2000x32_1_0_0_1_n_n 64 rfl rfl k
  have el : dot_S2000x64_S64x32_S2000x32_1_0_0_1_n_n.lhsIdx (ix2 p q) ((ValueIdx.contrEquiv1 dot_S2000x64_S64x32_S2000x32_1_0_0_1_n_n 64 rfl rfl).symm k) = ix2 p k := funext fun a => Fin.ext (by
    match a with
    | ⟨0, _⟩ => exact mm32_lhs0 _ _
    | ⟨1, _⟩ => exact (mm32_lhs1 _ _).trans hk)
  have er : dot_S2000x64_S64x32_S2000x32_1_0_0_1_n_n.rhsIdx (ix2 p q) ((ValueIdx.contrEquiv1 dot_S2000x64_S64x32_S2000x32_1_0_0_1_n_n 64 rfl rfl).symm k) = ix2 k q := funext fun a => Fin.ext (by
    match a with
    | ⟨0, _⟩ => exact (mm32_rhs0 _ _).trans hk
    | ⟨1, _⟩ => exact mm32_rhs1 _ _)
  rw [el, er]

/-! ### Stretched columns and repeated rows -/

/-- A column of 2000 entries stretched across 128 lanes: entry (p, k) is the column's entry p. -/
theorem col128_at {α : Type} (v : S2000x1.Idx → α) (hb : S2000x1.Broadcasts S2000x128) (p : Fin 2000) (k : Fin 128) :
    broadcastTo S2000x128 v hb (ix2 p k) = v (ix2 p (0 : Fin 1)) :=
  broadcastTo_apply v hb (ix2 p k) (ix2 p (0 : Fin 1)) (fun a => by
    match a with
    | ⟨0, _⟩ => show p.val = if (2000 : Nat) = 1 then 0 else p.val; rw [if_neg (by decide)]
    | ⟨1, _⟩ => show 0 = if (1 : Nat) = 1 then 0 else k.val; rw [if_pos rfl])

/-- A column of 2000 entries stretched across 64 lanes: entry (p, k) is the column's entry p. -/
theorem col64_at {α : Type} (v : S2000x1.Idx → α) (hb : S2000x1.Broadcasts S2000x64) (p : Fin 2000) (k : Fin 64) :
    broadcastTo S2000x64 v hb (ix2 p k) = v (ix2 p (0 : Fin 1)) :=
  broadcastTo_apply v hb (ix2 p k) (ix2 p (0 : Fin 1)) (fun a => by
    match a with
    | ⟨0, _⟩ => show p.val = if (2000 : Nat) = 1 then 0 else p.val; rw [if_neg (by decide)]
    | ⟨1, _⟩ => show 0 = if (1 : Nat) = 1 then 0 else k.val; rw [if_pos rfl])

/-- A row of 64 entries repeated down 2000 rows: entry (p, q) is the row's entry q. -/
theorem row64_at {α : Type} (v : S1x64.Idx → α) (hb : S1x64.Broadcasts S2000x64) (p : Fin 2000) (q : Fin 64) :
    broadcastTo S2000x64 v hb (ix2 p q) = v (ix2 (0 : Fin 1) q) :=
  broadcastTo_apply v hb (ix2 p q) (ix2 (0 : Fin 1) q) (fun a => by
    match a with
    | ⟨0, _⟩ => show 0 = if (1 : Nat) = 1 then 0 else p.val; rw [if_pos rfl]
    | ⟨1, _⟩ => show q.val = if (64 : Nat) = 1 then 0 else q.val; rw [if_neg (by decide)])

/-- A row of 32 entries repeated down 2000 rows: entry (p, q) is the row's entry q. -/
theorem row32_at {α : Type} (v : S1x32.Idx → α) (hb : S1x32.Broadcasts S2000x32) (p : Fin 2000) (q : Fin 32) :
    broadcastTo S2000x32 v hb (ix2 p q) = v (ix2 (0 : Fin 1) q) :=
  broadcastTo_apply v hb (ix2 p q) (ix2 (0 : Fin 1) q) (fun a => by
    match a with
    | ⟨0, _⟩ => show 0 = if (1 : Nat) = 1 then 0 else p.val; rw [if_pos rfl]
    | ⟨1, _⟩ => show q.val = if (32 : Nat) = 1 then 0 else q.val; rw [if_neg (by decide)])

end Cert.KernelIdeal.BodyOps

end
-- ==== Proof.Region0.lean ====
/-
  Region 0: one layer on blocks of 2000 rows. Block t of the result depends only on rows 2000·t … 2000·t + 1999 of the
  neighbour sums, the counts and the features, and on the whole weight matrices and bias row; entry (p, q) of what
  point t stores is entry (2000·t + p, q) of the layer applied to the whole arrays. The 25 blocks tile the 50000 rows,
  so after the region the result array is the layer of the arrays the region found.
-/
import proofs.«145187_j38766374814022_1_alg».proof.Proof.Gen.KernelIdeal.Frame
import proofs.«145187_j38766374814022_1_alg».proof.Proof.SageSpec
import proofs.«145187_j38766374814022_1_alg».proof.Proof.BodyOps
import Idealize.ShloMosaic.Lib.Pipeline.Value
import Idealize.ShloMosaic.Lib.Tactic

set_option maxRecDepth 16384

noncomputable section

open scoped BigOperators

namespace Cert.KernelIdeal.Region0

open Cert.KernelIdeal Cert.KernelIdeal.Gen Cert.KernelIdeal.BodyOps
open Idealize.ShloMosaic Idealize.ShloMosaic.TcCoe Idealize.ShloMosaic.ValueIdx Idealize.SL.Sem
open Idealize.ShloMosaic.Pipeline (Dat)

/-- What the body stores, at entry (p, q) of its block: the layer's entry over the six loaded blocks. -/
theorem pay_at (x1 : Vec Ideal S2000x1 .f32) (x0 x2 : Vec Ideal S2000x128 .f32) (x3 x5 : Vec Ideal S128x64 .f32)
    (x4 : Vec Ideal S1x64 .f32) (p : Fin 2000) (q : Fin 64) :
    k0_pay1 x1 x0 x2 x3 x5 x4 (ix2 p q) = max (Sage.layerAt x0 x1 x2 x3 x4 x5 p q) Sage.zero := by
  unfold k0_pay1
  simp only [shapeCast_self]
  show max (FloatOps.matmul (F := Ideal) _ none _ _ (constant S2000x64 .f32 0x00000000#32) (ix2 p q)
      + FloatOps.matmul (F := Ideal) _ none _ _ (constant S2000x64 .f32 0x00000000#32) (ix2 p q)
      + broadcastTo S2000x64 x4 _ (ix2 p q)) (Ideal.ofBits .f32 0x00000000#32) = _
  rw [mm128_at, mm128_at, row64_at]
  unfold Sage.layerAt Sage.meanAt
  refine congrArg (max · _) (congrArg (· + _) (congrArg₂ (· + ·) (Finset.sum_congr rfl fun k _ => ?_) rfl))
  show Ideal.div (x0 (ix2 p k)) (broadcastTo S2000x128 (maximumf (F := Ideal) x1 (broadcast S2000x1 (Ideal.ofBits .f32 0x3F800000#32))) _ (ix2 p k)) * x3 (ix2 k q) = _
  rw [col128_at]
  rfl

section Blocks

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the region finds. -/
abbrev G (c : Dev nD) : S50000x64.Idx → EReal :=
  Sage.layerRelu (V c main_v17 : S50000x128.Idx → EReal) (V c main_v7 : S50000x1.Idx → EReal) (V c main_arg0 : S50000x128.Idx → EReal)
    (V c main_arg2 : S128x64.Idx → EReal) (V c main_v18 : S1x64.Idx → EReal) (V c main_arg4 : S128x64.Idx → EReal)

/-- The printed index maps over the 25 points: the row-blocked windows move with the point, the weights stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

set_option maxHeartbeats 1000000 in
/-- WHAT POINT t WRITES BACK is block t of the layer of the whole arrays. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S2000x1) hz, View.ld_unit_zero (S := S2000x128) hz, View.ld_unit_zero (S := S128x64) hz,
    View.ld_unit_zero (S := S1x64) hz]
  obtain ⟨e00, e01, e10, e11, e20, e21, e30, e31, e40, e41, e50, e51, e60, e61⟩ := idx_facts t
  have ht : t.val < 25 := Nat.lt_of_lt_of_eq t.isLt N_0
  funext j
  obtain ⟨p, q, rfl⟩ : ∃ (p : Fin 2000) (q : Fin 64), j = ix2 p q := ⟨j 0, j 1, eq_ix2 j⟩
  show k0_pay1 (iblk0 V c 1 t) (iblk0 V c 0 t) (iblk0 V c 2 t) (iblk0 V c 3 t) (iblk0 V c 5 t) (iblk0 V c 4 t) (ix2 p q)
    = G V c (((cfg0.win 6).blk t).view.emb (ix2 p q))
  rw [pay_at]
  have hr : (((cfg0.win 6).blk t).view.emb (ix2 p q)) = ix2 (⟨t.val * 2000 + p.val, by omega⟩ : Fin 50000) q := by
    funext a; apply Fin.ext
    match a with
    | ⟨0, _⟩ => show win0_6.index t (0 : Fin 2) * 2000 + 1 * p.val = t.val * 2000 + p.val; rw [e60]; omega
    | ⟨1, _⟩ => show win0_6.index t (1 : Fin 2) * 64 + 1 * q.val = q.val; rw [e61]; omega
  rw [hr]
  show _ = max (Sage.layerAt _ _ _ _ _ _ (⟨t.val * 2000 + p.val, by omega⟩ : Fin 50000) q) Sage.zero
  unfold Sage.layerAt Sage.meanAt
  have h0 : ∀ k : Fin 128, iblk0 V c 0 t (ix2 p k) = (V c main_v17 : S50000x128.Idx → EReal) (ix2 (⟨t.val * 2000 + p.val, by omega⟩ : Fin 50000) k) := fun k => by
    unfold iblk0; rw [View.read_apply]
    refine congrArg (V c main_v17 : S50000x128.Idx → EReal) (funext fun a => Fin.ext ?_)
    match a with
    | ⟨0, _⟩ => show win0_0.index t (0 : Fin 2) * 2000 + 1 * p.val = t.val * 2000 + p.val; rw [e00]; omega
    | ⟨1, _⟩ => show win0_0.index t (1 : Fin 2) * 128 + 1 * k.val = k.val; rw [e01]; omega
  have h1 : iblk0 V c 1 t (ix2 p (0 : Fin 1)) = (V c main_v7 : S50000x1.Idx → EReal) (ix2 (⟨t.val * 2000 + p.val, by omega⟩ : Fin 50000) (0 : Fin 1)) := by
    unfold iblk0; rw [View.read_apply]
    refine congrArg (V c main_v7 : S50000x1.Idx → EReal) (funext fun a => Fin.ext ?_)
    match a with
    | ⟨0, _⟩ => show win0_1.index t (0 : Fin 2) * 2000 + 1 * p.val = t.val * 2000 + p.val; rw [e10]; omega
    | ⟨1, _⟩ => show win0_1.index t (1 : Fin 2) * 1 + 1 * 0 = 0; rw [e11]
  have h2 : ∀ k : Fin 128, iblk0 V c 2 t (ix2 p k) = (V c main_arg0 : S50000x128.Idx → EReal) (ix2 (⟨t.val * 2000 + p.val, by omega⟩ : Fin 50000) k) := fun k => by
    unfold iblk0; rw [View.read_apply]
    refine congrArg (V c main_arg0 : S50000x128.Idx → EReal) (funext fun a => Fin.ext ?_)
    match a with
    | ⟨0, _⟩ => show win0_2.index t (0 : Fin 2) * 2000 + 1 * p.val = t.val * 2000 + p.val; rw [e20]; omega
    | ⟨1, _⟩ => show win0_2.index t (1 : Fin 2) * 128 + 1 * k.val = k.val; rw [e21]; omega
  have h3 : ∀ k : Fin 128, iblk0 V c 3 t (ix2 k q) = (V c main_arg2 : S128x64.Idx → EReal) (ix2 k q) := fun k => by
    unfold iblk0; rw [View.read_apply]
    refine congrArg (V c main_arg2 : S128x64.Idx → EReal) (funext fun a => Fin.ext ?_)
    match a with
    | ⟨0, _⟩ => show win0_3.index t (0 : Fin 2) * 128 + 1 * k.val = k.val; rw [e30]; omega
    | ⟨1, _⟩ => show win0_3.index t (1 : Fin 2) * 64 + 1 * q.val = q.val; rw [e31]; omega
  have h4 : iblk0 V c 4 t (ix2 (0 : Fin 1) q) = (V c main_v18 : S1x64.Idx → EReal) (ix2 (0 : Fin 1) q) := by
    unfold iblk0; rw [View.read_apply]
    refine congrArg (V c main_v18 : S1x64.Idx → EReal) (funext fun a => Fin.ext ?_)
    match a with
    | ⟨0, _⟩ => show win0_4.index t (0 : Fin 2) * 1 + 1 * 0 = 0; rw [e40]
    | ⟨1, _⟩ => show win0_4.index t (1 : Fin 2) * 64 + 1 * q.val = q.val; rw [e41]; omega
  have h5 : ∀ k : Fin 128, iblk0 V c 5 t (ix2 k q) = (V c main_arg4 : S128x64.Idx → EReal) (ix2 k q) := fun k => by
    unfold iblk0; rw [View.read_apply]
    refine congrArg (V c main_arg4 : S128x64.Idx → EReal) (funext fun a => Fin.ext ?_)
    match a with
    | ⟨0, _⟩ => show win0_5.index t (0 : Fin 2) * 128 + 1 * k.val = k.val; rw [e50]; omega
    | ⟨1, _⟩ => show win0_5.index t (1 : Fin 2) * 64 + 1 * q.val = q.val; rw [e51]; omega
  simp only [h0, h1, h2, h3, h4, h5]

/-- An index of the result array is in point t's block iff each coordinate is in the block's range on its axis. -/
theorem mem_blk (t : Fin cfg0.N) (i : S50000x64.Idx) :
    i ∈ ((cfg0.win 6).blk t).view.set ↔ ∀ a : Fin 2, win0_6.index t a * S2000x64.size a ≤ (i a).val ∧ (i a).val < win0_6.index t a * S2000x64.size a + S2000x64.size a := by
  show i ∈ ((View.whole main_v19).slice (win0_6.rect t)).set ↔ _
  rw [View.set_slice_whole, Rect.mem_set_unit]
  exact Iff.rfl

/-- Row r lies in the block of point r / 2000: the 25 blocks tile the 50000 rows. -/
theorem cover (i : S50000x64.Idx) : ∃ t : Fin cfg0.N, (cfg0.win 6).flush t = true ∧ i ∈ ((cfg0.win 6).blk t).view.set := by
  have hi0 : (i 0).val < 50000 := (i 0).isLt
  have hi1 : (i 1).val < 64 := (i 1).isLt
  have hN : cfg0.N = 25 := N_0
  let t : Fin cfg0.N := ⟨(i 0).val / 2000, by rw [hN]; omega⟩
  obtain ⟨-, -, -, -, -, -, -, -, -, -, -, -, e60, e61⟩ := idx_facts t
  refine ⟨t, flush0_6 t, ?_⟩
  rw [mem_blk]
  intro a
  match a with
  | ⟨0, _⟩ => show win0_6.index t (0 : Fin 2) * 2000 ≤ (i 0).val ∧ (i 0).val < win0_6.index t (0 : Fin 2) * 2000 + 2000; rw [e60]; show (i 0).val / 2000 * 2000 ≤ (i 0).val ∧ (i 0).val < (i 0).val / 2000 * 2000 + 2000; omega
  | ⟨1, _⟩ => show win0_6.index t (1 : Fin 2) * 64 ≤ (i 1).val ∧ (i 1).val < win0_6.index t (1 : Fin 2) * 64 + 64; rw [e61]; omega

/-- THE RESULT ARRAY after the region: the layer of the arrays the region found. -/
theorem final (c : Dev nD) : (dat0 V c).arrAt 6 cfg0.N = G V c :=
  (dat0 V c).arrAt_eq_of_cover 6 (G V c) (fun t _ => flushed_eq V c t) (cover)

end Blocks

end Cert.KernelIdeal.Region0

end
-- ==== Proof.Region1.lean ====
/-
  Region 1: one layer on blocks of 2000 rows. Block t of the result depends only on rows 2000·t … 2000·t + 1999 of the
  neighbour sums, the counts and the features, and on the whole weight matrices and bias row; entry (p, q) of what
  point t stores is entry (2000·t + p, q) of the layer applied to the whole arrays. The 25 blocks tile the 50000 rows,
  so after the region the result array is the layer of the arrays the region found.
-/
import proofs.«145187_j38766374814022_1_alg».proof.Proof.Gen.KernelIdeal.Frame
import proofs.«145187_j38766374814022_1_alg».proof.Proof.SageSpec
import proofs.«145187_j38766374814022_1_alg».proof.Proof.BodyOps
import Idealize.ShloMosaic.Lib.Pipeline.Value
import Idealize.ShloMosaic.Lib.Tactic

set_option maxRecDepth 16384

noncomputable section

open scoped BigOperators

namespace Cert.KernelIdeal.Region1

open Cert.KernelIdeal Cert.KernelIdeal.Gen Cert.KernelIdeal.BodyOps
open Idealize.ShloMosaic Idealize.ShloMosaic.TcCoe Idealize.ShloMosaic.ValueIdx Idealize.SL.Sem
open Idealize.ShloMosaic.Pipeline (Dat)

/-- What the body stores, at entry (p, q) of its block: the layer's entry over the six loaded blocks. -/
theorem pay_at (x1 : Vec Ideal S2000x1 .f32) (x0 x2 : Vec Ideal S2000x64 .f32) (x3 x5 : Vec Ideal S64x64 .f32)
    (x4 : Vec Ideal S1x64 .f32) (p : Fin 2000) (q : Fin 64) :
    k1_pay1 x1 x0 x2 x3 x5 x4 (ix2 p q) = max (Sage.layerAt x0 x1 x2 x3 x4 x5 p q) Sage.zero := by
  unfold k1_pay1
  simp only [shapeCast_self]
  show max (FloatOps.matmul (F := Ideal) _ none _ _ (constant S2000x64 .f32 0x00000000#32) (ix2 p q)
      + FloatOps.matmul (F := Ideal) _ none _ _ (constant S2000x64 .f32 0x00000000#32) (ix2 p q)
      + broadcastTo S2000x64 x4 _ (ix2 p q)) (Ideal.ofBits .f32 0x00000000#32) = _
  rw [mm64_at, mm64_at, row64_at]
  unfold Sage.layerAt Sage.meanAt
  refine congrArg (max · _) (congrArg (· + _) (congrArg₂ (· + ·) (Finset.sum_congr rfl fun k _ => ?_) rfl))
  show Ideal.div (x0 (ix2 p k)) (broadcastTo S2000x64 (maximumf (F := Ideal) x1 (broadcast S2000x1 (Ideal.ofBits .f32 0x3F800000#32))) _ (ix2 p k)) * x3 (ix2 k q) = _
  rw [col64_at]
  rfl

section Blocks

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the region finds. -/
abbrev G (c : Dev nD) : S50000x64.Idx → EReal :=
  Sage.layerRelu (V c main_v29 : S50000x64.Idx → EReal) (V c main_v7 : S50000x1.Idx → EReal) (V c main_v19 : S50000x64.Idx → EReal)
    (V c main_arg5 : S64x64.Idx → EReal) (V c main_v30 : S1x64.Idx → EReal) (V c main_arg7 : S64x64.Idx → EReal)

/-- The printed index maps over the 25 points: the row-blocked windows move with the point, the weights stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

set_option maxHeartbeats 1000000 in
/-- WHAT POINT t WRITES BACK is block t of the layer of the whole arrays. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S2000x1) hz, View.ld_unit_zero (S := S2000x64) hz, View.ld_unit_zero (S := S64x64) hz,
    View.ld_unit_zero (S := S1x64) hz]
  obtain ⟨e00, e01, e10, e11, e20, e21, e30, e31, e40, e41, e50, e51, e60, e61⟩ := idx_facts t
  have ht : t.val < 25 := Nat.lt_of_lt_of_eq t.isLt N_1
  funext j
  obtain ⟨p, q, rfl⟩ : ∃ (p : Fin 2000) (q : Fin 64), j = ix2 p q := ⟨j 0, j 1, eq_ix2 j⟩
  show k1_pay1 (iblk1 V c 1 t) (iblk1 V c 0 t) (iblk1 V c 2 t) (iblk1 V c 3 t) (iblk1 V c 5 t) (iblk1 V c 4 t) (ix2 p q)
    = G V c (((cfg1.win 6).blk t).view.emb (ix2 p q))
  rw [pay_at]
  have hr : (((cfg1.win 6).blk t).view.emb (ix2 p q)) = ix2 (⟨t.val * 2000 + p.val, by omega⟩ : Fin 50000) q := by
    funext a; apply Fin.ext
    match a with
    | ⟨0, _⟩ => show win1_6.index t (0 : Fin 2) * 2000 + 1 * p.val = t.val * 2000 + p.val; rw [e60]; omega
    | ⟨1, _⟩ => show win1_6.index t (1 : Fin 2) * 64 + 1 * q.val = q.val; rw [e61]; omega
  rw [hr]
  show _ = max (Sage.layerAt _ _ _ _ _ _ (⟨t.val * 2000 + p.val, by omega⟩ : Fin 50000) q) Sage.zero
  unfold Sage.layerAt Sage.meanAt
  have h0 : ∀ k : Fin 64, iblk1 V c 0 t (ix2 p k) = (V c main_v29 : S50000x64.Idx → EReal) (ix2 (⟨t.val * 2000 + p.val, by omega⟩ : Fin 50000) k) := fun k => by
    unfold iblk1; rw [View.read_apply]
    refine congrArg (V c main_v29 : S50000x64.Idx → EReal) (funext fun a => Fin.ext ?_)
    match a with
    | ⟨0, _⟩ => show win1_0.index t (0 : Fin 2) * 2000 + 1 * p.val = t.val * 2000 + p.val; rw [e00]; omega
    | ⟨1, _⟩ => show win1_0.index t (1 : Fin 2) * 64 + 1 * k.val = k.val; rw [e01]; omega
  have h1 : iblk1 V c 1 t (ix2 p (0 : Fin 1)) = (V c main_v7 : S50000x1.Idx → EReal) (ix2 (⟨t.val * 2000 + p.val, by omega⟩ : Fin 50000) (0 : Fin 1)) := by
    unfold iblk1; rw [View.read_apply]
    refine congrArg (V c main_v7 : S50000x1.Idx → EReal) (funext fun a => Fin.ext ?_)
    match a with
    | ⟨0, _⟩ => show win1_1.index t (0 : Fin 2) * 2000 + 1 * p.val = t.val * 2000 + p.val; rw [e10]; omega
    | ⟨1, _⟩ => show win1_1.index t (1 : Fin 2) * 1 + 1 * 0 = 0; rw [e11]
  have h2 : ∀ k : Fin 64, iblk1 V c 2 t (ix2 p k) = (V c main_v19 : S50000x64.Idx → EReal) (ix2 (⟨t.val * 2000 + p.val, by omega⟩ : Fin 50000) k) := fun k => by
    unfold iblk1; rw [View.read_apply]
    refine congrArg (V c main_v19 : S50000x64.Idx → EReal) (funext fun a => Fin.ext ?_)
    match a with
    | ⟨0, _⟩ => show win1_2.index t (0 : Fin 2) * 2000 + 1 * p.val = t.val * 2000 + p.val; rw [e20]; omega
    | ⟨1, _⟩ => show win1_2.index t (1 : Fin 2) * 64 + 1 * k.val = k.val; rw [e21]; omega
  have h3 : ∀ k : Fin 64, iblk1 V c 3 t (ix2 k q) = (V c main_arg5 : S64x64.Idx → EReal) (ix2 k q) := fun k => by
    unfold iblk1; rw [View.read_apply]
    refine congrArg (V c main_arg5 : S64x64.Idx → EReal) (funext fun a => Fin.ext ?_)
    match a with
    | ⟨0, _⟩ => show win1_3.index t (0 : Fin 2) * 64 + 1 * k.val = k.val; rw [e30]; omega
    | ⟨1, _⟩ => show win1_3.index t (1 : Fin 2) * 64 + 1 * q.val = q.val; rw [e31]; omega
  have h4 : iblk1 V c 4 t (ix2 (0 : Fin 1) q) = (V c main_v30 : S1x64.Idx → EReal) (ix2 (0 : Fin 1) q) := by
    unfold iblk1; rw [View.read_apply]
    refine congrArg (V c main_v30 : S1x64.Idx → EReal) (funext fun a => Fin.ext ?_)
    match a with
    | ⟨0, _⟩ => show win1_4.index t (0 : Fin 2) * 1 + 1 * 0 = 0; rw [e40]
    | ⟨1, _⟩ => show win1_4.index t (1 : Fin 2) * 64 + 1 * q.val = q.val; rw [e41]; omega
  have h5 : ∀ k : Fin 64, iblk1 V c 5 t (ix2 k q) = (V c main_arg7 : S64x64.Idx → EReal) (ix2 k q) := fun k => by
    unfold iblk1; rw [View.read_apply]
    refine congrArg (V c main_arg7 : S64x64.Idx → EReal) (funext fun a => Fin.ext ?_)
    match a with
    | ⟨0, _⟩ => show win1_5.index t (0 : Fin 2) * 64 + 1 * k.val = k.val; rw [e50]; omega
    | ⟨1, _⟩ => show win1_5.index t (1 : Fin 2) * 64 + 1 * q.val = q.val; rw [e51]; omega
  simp only [h0, h1, h2, h3, h4, h5]

/-- An index of the result array is in point t's block iff each coordinate is in the block's range on its axis. -/
theorem mem_blk (t : Fin cfg1.N) (i : S50000x64.Idx) :
    i ∈ ((cfg1.win 6).blk t).view.set ↔ ∀ a : Fin 2, win1_6.index t a * S2000x64.size a ≤ (i a).val ∧ (i a).val < win1_6.index t a * S2000x64.size a + S2000x64.size a := by
  show i ∈ ((View.whole main_v31).slice (win1_6.rect t)).set ↔ _
  rw [View.set_slice_whole, Rect.mem_set_unit]
  exact Iff.rfl

/-- Row r lies in the block of point r / 2000: the 25 blocks tile the 50000 rows. -/
theorem cover (i : S50000x64.Idx) : ∃ t : Fin cfg1.N, (cfg1.win 6).flush t = true ∧ i ∈ ((cfg1.win 6).blk t).view.set := by
  have hi0 : (i 0).val < 50000 := (i 0).isLt
  have hi1 : (i 1).val < 64 := (i 1).isLt
  have hN : cfg1.N = 25 := N_1
  let t : Fin cfg1.N := ⟨(i 0).val / 2000, by rw [hN]; omega⟩
  obtain ⟨-, -, -, -, -, -, -, -, -, -, -, -, e60, e61⟩ := idx_facts t
  refine ⟨t, flush1_6 t, ?_⟩
  rw [mem_blk]
  intro a
  match a with
  | ⟨0, _⟩ => show win1_6.index t (0 : Fin 2) * 2000 ≤ (i 0).val ∧ (i 0).val < win1_6.index t (0 : Fin 2) * 2000 + 2000; rw [e60]; show (i 0).val / 2000 * 2000 ≤ (i 0).val ∧ (i 0).val < (i 0).val / 2000 * 2000 + 2000; omega
  | ⟨1, _⟩ => show win1_6.index t (1 : Fin 2) * 64 ≤ (i 1).val ∧ (i 1).val < win1_6.index t (1 : Fin 2) * 64 + 64; rw [e61]; omega

/-- THE RESULT ARRAY after the region: the layer of the arrays the region found. -/
theorem final (c : Dev nD) : (dat1 V c).arrAt 6 cfg1.N = G V c :=
  (dat1 V c).arrAt_eq_of_cover 6 (G V c) (fun t _ => flushed_eq V c t) (cover)

end Blocks

end Cert.KernelIdeal.Region1

end
-- ==== Proof.Region2.lean ====
/-
  Region 2: one layer on blocks of 2000 rows. Block t of the result depends only on rows 2000·t … 2000·t + 1999 of the
  neighbour sums, the counts and the features, and on the whole weight matrices and bias row; entry (p, q) of what
  point t stores is entry (2000·t + p, q) of the layer applied to the whole arrays. The 25 blocks tile the 50000 rows,
  so after the region the result array is the layer of the arrays the region found.
-/
import proofs.«145187_j38766374814022_1_alg».proof.Proof.Gen.KernelIdeal.Frame
import proofs.«145187_j38766374814022_1_alg».proof.Proof.SageSpec
import proofs.«145187_j38766374814022_1_alg».proof.Proof.BodyOps
import Idealize.ShloMosaic.Lib.Pipeline.Value
import Idealize.ShloMosaic.Lib.Tactic

set_option maxRecDepth 16384

noncomputable section

open scoped BigOperators

namespace Cert.KernelIdeal.Region2

open Cert.KernelIdeal Cert.KernelIdeal.Gen Cert.KernelIdeal.BodyOps
open Idealize.ShloMosaic Idealize.ShloMosaic.TcCoe Idealize.ShloMosaic.ValueIdx Idealize.SL.Sem
open Idealize.ShloMosaic.Pipeline (Dat)

/-- What the body stores, at entry (p, q) of its block: the layer's entry over the six loaded blocks. -/
theorem pay_at (x1 : Vec Ideal S2000x1 .f32) (x0 x2 : Vec Ideal S2000x64 .f32) (x3 x5 : Vec Ideal S64x64 .f32)
    (x4 : Vec Ideal S1x64 .f32) (p : Fin 2000) (q : Fin 64) :
    k2_pay1 x1 x0 x2 x3 x5 x4 (ix2 p q) = max (Sage.layerAt x0 x1 x2 x3 x4 x5 p q) Sage.zero := by
  unfold k2_pay1
  simp only [shapeCast_self]
  show max (FloatOps.matmul (F := Ideal) _ none _ _ (constant S2000x64 .f32 0x00000000#32) (ix2 p q)
      + FloatOps.matmul (F := Ideal) _ none _ _ (constant S2000x64 .f32 0x00000000#32) (ix2 p q)
      + broadcastTo S2000x64 x4 _ (ix2 p q)) (Ideal.ofBits .f32 0x00000000#32) = _
  rw [mm64_at, mm64_at, row64_at]
  unfold Sage.layerAt Sage.meanAt
  refine congrArg (max · _) (congrArg (· + _) (congrArg₂ (· + ·) (Finset.sum_congr rfl fun k _ => ?_) rfl))
  show Ideal.div (x0 (ix2 p k)) (broadcastTo S2000x64 (maximumf (F := Ideal) x1 (broadcast S2000x1 (Ideal.ofBits .f32 0x3F800000#32))) _ (ix2 p k)) * x3 (ix2 k q) = _
  rw [col64_at]
  rfl

section Blocks

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the region finds. -/
abbrev G (c : Dev nD) : S50000x64.Idx → EReal :=
  Sage.layerRelu (V c main_v41 : S50000x64.Idx → EReal) (V c main_v7 : S50000x1.Idx → EReal) (V c main_v31 : S50000x64.Idx → EReal)
    (V c main_arg8 : S64x64.Idx → EReal) (V c main_v42 : S1x64.Idx → EReal) (V c main_arg10 : S64x64.Idx → EReal)

/-- The printed index maps over the 25 points: the row-blocked windows move with the point, the weights stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

set_option maxHeartbeats 1000000 in
/-- WHAT POINT t WRITES BACK is block t of the layer of the whole arrays. -/
theorem flushed_eq (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6]
  unfold out2_6
  rw [View.canon_unit_zero hz]
  simp only [View.ld_unit_zero (S := S2000x1) hz, View.ld_unit_zero (S := S2000x64) hz, View.ld_unit_zero (S := S64x64) hz,
    View.ld_unit_zero (S := S1x64) hz]
  obtain ⟨e00, e01, e10, e11, e20, e21, e30, e31, e40, e41, e50, e51, e60, e61⟩ := idx_facts t
  have ht : t.val < 25 := Nat.lt_of_lt_of_eq t.isLt N_2
  funext j
  obtain ⟨p, q, rfl⟩ : ∃ (p : Fin 2000) (q : Fin 64), j = ix2 p q := ⟨j 0, j 1, eq_ix2 j⟩
  show k2_pay1 (iblk2 V c 1 t) (iblk2 V c 0 t) (iblk2 V c 2 t) (iblk2 V c 3 t) (iblk2 V c 5 t) (iblk2 V c 4 t) (ix2 p q)
    = G V c (((cfg2.win 6).blk t).view.emb (ix2 p q))
  rw [pay_at]
  have hr : (((cfg2.win 6).blk t).view.emb (ix2 p q)) = ix2 (⟨t.val * 2000 + p.val, by omega⟩ : Fin 50000) q := by
    funext a; apply Fin.ext
    match a with
    | ⟨0, _⟩ => show win2_6.index t (0 : Fin 2) * 2000 + 1 * p.val = t.val * 2000 + p.val; rw [e60]; omega
    | ⟨1, _⟩ => show win2_6.index t (1 : Fin 2) * 64 + 1 * q.val = q.val; rw [e61]; omega
  rw [hr]
  show _ = max (Sage.layerAt _ _ _ _ _ _ (⟨t.val * 2000 + p.val, by omega⟩ : Fin 50000) q) Sage.zero
  unfold Sage.layerAt Sage.meanAt
  have h0 : ∀ k : Fin 64, iblk2 V c 0 t (ix2 p k) = (V c main_v41 : S50000x64.Idx → EReal) (ix2 (⟨t.val * 2000 + p.val, by omega⟩ : Fin 50000) k) := fun k => by
    unfold iblk2; rw [View.read_apply]
    refine congrArg (V c main_v41 : S50000x64.Idx → EReal) (funext fun a => Fin.ext ?_)
    match a with
    | ⟨0, _⟩ => show win2_0.index t (0 : Fin 2) * 2000 + 1 * p.val = t.val * 2000 + p.val; rw [e00]; omega
    | ⟨1, _⟩ => show win2_0.index t (1 : Fin 2) * 64 + 1 * k.val = k.val; rw [e01]; omega
  have h1 : iblk2 V c 1 t (ix2 p (0 : Fin 1)) = (V c main_v7 : S50000x1.Idx → EReal) (ix2 (⟨t.val * 2000 + p.val, by omega⟩ : Fin 50000) (0 : Fin 1)) := by
    unfold iblk2; rw [View.read_apply]
    refine congrArg (V c main_v7 : S50000x1.Idx → EReal) (funext fun a => Fin.ext ?_)
    match a with
    | ⟨0, _⟩ => show win2_1.index t (0 : Fin 2) * 2000 + 1 * p.val = t.val * 2000 + p.val; rw [e10]; omega
    | ⟨1, _⟩ => show win2_1.index t (1 : Fin 2) * 1 + 1 * 0 = 0; rw [e11]
  have h2 : ∀ k : Fin 64, iblk2 V c 2 t (ix2 p k) = (V c main_v31 : S50000x64.Idx → EReal) (ix2 (⟨t.val * 2000 + p.val, by omega⟩ : Fin 50000) k) := fun k => by
    unfold iblk2; rw [View.read_apply]
    refine congrArg (V c main_v31 : S50000x64.Idx → EReal) (funext fun a => Fin.ext ?_)
    match a with
    | ⟨0, _⟩ => show win2_2.index t (0 : Fin 2) * 2000 + 1 * p.val = t.val * 2000 + p.val; rw [e20]; omega
    | ⟨1, _⟩ => show win2_2.index t (1 : Fin 2) * 64 + 1 * k.val = k.val; rw [e21]; omega
  have h3 : ∀ k : Fin 64, iblk2 V c 3 t (ix2 k q) = (V c main_arg8 : S64x64.Idx → EReal) (ix2 k q) := fun k => by
    unfold iblk2; rw [View.read_apply]
    refine congrArg (V c main_arg8 : S64x64.Idx → EReal) (funext fun a => Fin.ext ?_)
    match a with
    | ⟨0, _⟩ => show win2_3.index t (0 : Fin 2) * 64 + 1 * k.val = k.val; rw [e30]; omega
    | ⟨1, _⟩ => show win2_3.index t (1 : Fin 2) * 64 + 1 * q.val = q.val; rw [e31]; omega
  have h4 : iblk2 V c 4 t (ix2 (0 : Fin 1) q) = (V c main_v42 : S1x64.Idx → EReal) (ix2 (0 : Fin 1) q) := by
    unfold iblk2; rw [View.read_apply]
    refine congrArg (V c main_v42 : S1x64.Idx → EReal) (funext fun a => Fin.ext ?_)
    match a with
    | ⟨0, _⟩ => show win2_4.index t (0 : Fin 2) * 1 + 1 * 0 = 0; rw [e40]
    | ⟨1, _⟩ => show win2_4.index t (1 : Fin 2) * 64 + 1 * q.val = q.val; rw [e41]; omega
  have h5 : ∀ k : Fin 64, iblk2 V c 5 t (ix2 k q) = (V c main_arg10 : S64x64.Idx → EReal) (ix2 k q) := fun k => by
    unfold iblk2; rw [View.read_apply]
    refine congrArg (V c main_arg10 : S64x64.Idx → EReal) (funext fun a => Fin.ext ?_)
    match a with
    | ⟨0, _⟩ => show win2_5.index t (0 : Fin 2) * 64 + 1 * k.val = k.val; rw [e50]; omega
    | ⟨1, _⟩ => show win2_5.index t (1 : Fin 2) * 64 + 1 * q.val = q.val; rw [e51]; omega
  simp only [h0, h1, h2, h3, h4, h5]

/-- An index of the result array is in point t's block iff each coordinate is in the block's range on its axis. -/
theorem mem_blk (t : Fin cfg2.N) (i : S50000x64.Idx) :
    i ∈ ((cfg2.win 6).blk t).view.set ↔ ∀ a : Fin 2, win2_6.index t a * S2000x64.size a ≤ (i a).val ∧ (i a).val < win2_6.index t a * S2000x64.size a + S2000x64.size a := by
  show i ∈ ((View.whole main_v43).slice (win2_6.rect t)).set ↔ _
  rw [View.set_slice_whole, Rect.mem_set_unit]
  exact Iff.rfl

/-- Row r lies in the block of point r / 2000: the 25 blocks tile the 50000 rows. -/
theorem cover (i : S50000x64.Idx) : ∃ t : Fin cfg2.N, (cfg2.win 6).flush t = true ∧ i ∈ ((cfg2.win 6).blk t).view.set := by
  have hi0 : (i 0).val < 50000 := (i 0).isLt
  have hi1 : (i 1).val < 64 := (i 1).isLt
  have hN : cfg2.N = 25 := N_2
  let t : Fin cfg2.N := ⟨(i 0).val / 2000, by rw [hN]; omega⟩
  obtain ⟨-, -, -, -, -, -, -, -, -, -, -, -, e60, e61⟩ := idx_facts t
  refine ⟨t, flush2_6 t, ?_⟩
  rw [mem_blk]
  intro a
  match a with
  | ⟨0, _⟩ => show win2_6.index t (0 : Fin 2) * 2000 ≤ (i 0).val ∧ (i 0).val < win2_6.index t (0 : Fin 2) * 2000 + 2000; rw [e60]; show (i 0).val / 2000 * 2000 ≤ (i 0).val ∧ (i 0).val < (i 0).val / 2000 * 2000 + 2000; omega
  | ⟨1, _⟩ => show win2_6.index t (1 : Fin 2) * 64 ≤ (i 1).val ∧ (i 1).val < win2_6.index t (1 : Fin 2) * 64 + 64; rw [e61]; omega

/-- THE RESULT ARRAY after the region: the layer of the arrays the region found. -/
theorem final (c : Dev nD) : (dat2 V c).arrAt 6 cfg2.N = G V c :=
  (dat2 V c).arrAt_eq_of_cover 6 (G V c) (fun t _ => flushed_eq V c t) (cover)

end Blocks

end Cert.KernelIdeal.Region2

end
-- ==== Proof.Region3.lean ====
/-
  Region 3: one layer on blocks of 2000 rows. Block t of the result depends only on rows 2000·t … 2000·t + 1999 of the
  neighbour sums, the counts and the features, and on the whole weight matrices and bias row; entry (p, q) of what
  point t stores is entry (2000·t + p, q) of the layer applied to the whole arrays. The 25 blocks tile the 50000 rows,
  so after the region the result array is the layer of the arrays the region found.
-/
import proofs.«145187_j38766374814022_1_alg».proof.Proof.Gen.KernelIdeal.Frame
import proofs.«145187_j38766374814022_1_alg».proof.Proof.SageSpec
import proofs.«145187_j38766374814022_1_alg».proof.Proof.BodyOps
import Idealize.ShloMosaic.Lib.Pipeline.Value
import Idealize.ShloMosaic.Lib.Tactic

set_option maxRecDepth 16384

noncomputable section

open scoped BigOperators

namespace Cert.KernelIdeal.Region3

open Cert.KernelIdeal Cert.KernelIdeal.Gen Cert.KernelIdeal.BodyOps
open Idealize.ShloMosaic Idealize.ShloMosaic.TcCoe Idealize.ShloMosaic.ValueIdx Idealize.SL.Sem
open Idealize.ShloMosaic.Pipeline (Dat)

/-- What the body stores, at entry (p, q) of its block: the layer's entry over the six loaded blocks. -/
theorem pay_at (x1 : Vec Ideal S2000x1 .f32) (x0 x2 : Vec Ideal S2000x64 .f32) (x3 x5 : Vec Ideal S64x64 .f32)
    (x4 : Vec Ideal S1x64 .f32) (p : Fin 2000) (q : Fin 64) :
    k3_pay1 x1 x0 x2 x3 x5 x4 (ix2 p q) = Sage.layerAt x0 x1 x2 x3 x4 x5 p q := by
  unfold k3_pay1
  simp only [shapeCast_self]
  show (FloatOps.matmul (F := Ideal) _ none _ _ (constant S2000x64 .f32 0x00000000#32) (ix2 p q)
      + FloatOps.matmul (F := Ideal) _ none _ _ (constant S2000x64 .f32 0x00000000#32) (ix2 p q)
      + broadcastTo S2000x64 x4 _ (ix2 p q)) = _
  rw [mm64_at, mm64_at, row64_at]
  unfold Sage.layerAt Sage.meanAt
  refine (congrArg (· + _) (congrArg₂ (· + ·) (Finset.sum_congr rfl fun k _ => ?_) rfl))
  show Ideal.div (x0 (ix2 p k)) (broadcastTo S2000x64 (maximumf (F := Ideal) x1 (broadcast S2000x1 (Ideal.ofBits .f32 0x3F800000#32))) _ (ix2 p k)) * x3 (ix2 k q) = _
  rw [col64_at]
  rfl

section Blocks

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the region finds. -/
abbrev G (c : Dev nD) : S50000x64.Idx → EReal :=
  Sage.layer (V c main_v53 : S50000x64.Idx → EReal) (V c main_v7 : S50000x1.Idx → EReal) (V c main_v43 : S50000x64.Idx → EReal)
    (V c main_arg11 : S64x64.Idx → EReal) (V c main_v54 : S1x64.Idx → EReal) (V c main_arg13 : S64x64.Idx → EReal)

/-- The printed index maps over the 25 points: the row-blocked windows move with the point, the weights stay. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

set_option maxHeartbeats 1000000 in
/-- WHAT POINT t WRITES BACK is block t of the layer of the whole arrays. -/
theorem flushed_eq (c : Dev nD) (t : Fin cfg3.N) :
    (dat3 V c).flushed 6 t = ((cfg3.win 6).blk t).view.read (Elt Ideal) (G V c) := by
  show (cfg3.win 6).cut (grid3.coords t) ((dat3 V c).after 6 t) = _
  rw [after3_6]
  unfold out3_6
  rw [View.canon_unit_zero hz]
  simp only [View.ld_unit_zero (S := S2000x1) hz, View.ld_unit_zero (S := S2000x64) hz, View.ld_unit_zero (S := S64x64) hz,
    View.ld_unit_zero (S := S1x64) hz]
  obtain ⟨e00, e01, e10, e11, e20, e21, e30, e31, e40, e41, e50, e51, e60, e61⟩ := idx_facts t
  have ht : t.val < 25 := Nat.lt_of_lt_of_eq t.isLt N_3
  funext j
  obtain ⟨p, q, rfl⟩ : ∃ (p : Fin 2000) (q : Fin 64), j = ix2 p q := ⟨j 0, j 1, eq_ix2 j⟩
  show k3_pay1 (iblk3 V c 1 t) (iblk3 V c 0 t) (iblk3 V c 2 t) (iblk3 V c 3 t) (iblk3 V c 5 t) (iblk3 V c 4 t) (ix2 p q)
    = G V c (((cfg3.win 6).blk t).view.emb (ix2 p q))
  rw [pay_at]
  have hr : (((cfg3.win 6).blk t).view.emb (ix2 p q)) = ix2 (⟨t.val * 2000 + p.val, by omega⟩ : Fin 50000) q := by
    funext a; apply Fin.ext
    match a with
    | ⟨0, _⟩ => show win3_6.index t (0 : Fin 2) * 2000 + 1 * p.val = t.val * 2000 + p.val; rw [e60]; omega
    | ⟨1, _⟩ => show win3_6.index t (1 : Fin 2) * 64 + 1 * q.val = q.val; rw [e61]; omega
  rw [hr]
  show _ = Sage.layerAt _ _ _ _ _ _ (⟨t.val * 2000 + p.val, by omega⟩ : Fin 50000) q
  unfold Sage.layerAt Sage.meanAt
  have h0 : ∀ k : Fin 64, iblk3 V c 0 t (ix2 p k) = (V c main_v53 : S50000x64.Idx → EReal) (ix2 (⟨t.val * 2000 + p.val, by omega⟩ : Fin 50000) k) := fun k => by
    unfold iblk3; rw [View.read_apply]
    refine congrArg (V c main_v53 : S50000x64.Idx → EReal) (funext fun a => Fin.ext ?_)
    match a with
    | ⟨0, _⟩ => show win3_0.index t (0 : Fin 2) * 2000 + 1 * p.val = t.val * 2000 + p.val; rw [e00]; omega
    | ⟨1, _⟩ => show win3_0.index t (1 : Fin 2) * 64 + 1 * k.val = k.val; rw [e01]; omega
  have h1 : iblk3 V c 1 t (ix2 p (0 : Fin 1)) = (V c main_v7 : S50000x1.Idx → EReal) (ix2 (⟨t.val * 2000 + p.val, by omega⟩ : Fin 50000) (0 : Fin 1)) := by
    unfold iblk3; rw [View.read_apply]
    refine congrArg (V c main_v7 : S50000x1.Idx → EReal) (funext fun a => Fin.ext ?_)
    match a with
    | ⟨0, _⟩ => show win3_1.index t (0 : Fin 2) * 2000 + 1 * p.val = t.val * 2000 + p.val; rw [e10]; omega
    | ⟨1, _⟩ => show win3_1.index t (1 : Fin 2) * 1 + 1 * 0 = 0; rw [e11]
  have h2 : ∀ k : Fin 64, iblk3 V c 2 t (ix2 p k) = (V c main_v43 : S50000x64.Idx → EReal) (ix2 (⟨t.val * 2000 + p.val, by omega⟩ : Fin 50000) k) := fun k => by
    unfold iblk3; rw [View.read_apply]
    refine congrArg (V c main_v43 : S50000x64.Idx → EReal) (funext fun a => Fin.ext ?_)
    match a with
    | ⟨0, _⟩ => show win3_2.index t (0 : Fin 2) * 2000 + 1 * p.val = t.val * 2000 + p.val; rw [e20]; omega
    | ⟨1, _⟩ => show win3_2.index t (1 : Fin 2) * 64 + 1 * k.val = k.val; rw [e21]; omega
  have h3 : ∀ k : Fin 64, iblk3 V c 3 t (ix2 k q) = (V c main_arg11 : S64x64.Idx → EReal) (ix2 k q) := fun k => by
    unfold iblk3; rw [View.read_apply]
    refine congrArg (V c main_arg11 : S64x64.Idx → EReal) (funext fun a => Fin.ext ?_)
    match a with
    | ⟨0, _⟩ => show win3_3.index t (0 : Fin 2) * 64 + 1 * k.val = k.val; rw [e30]; omega
    | ⟨1, _⟩ => show win3_3.index t (1 : Fin 2) * 64 + 1 * q.val = q.val; rw [e31]; omega
  have h4 : iblk3 V c 4 t (ix2 (0 : Fin 1) q) = (V c main_v54 : S1x64.Idx → EReal) (ix2 (0 : Fin 1) q) := by
    unfold iblk3; rw [View.read_apply]
    refine congrArg (V c main_v54 : S1x64.Idx → EReal) (funext fun a => Fin.ext ?_)
    match a with
    | ⟨0, _⟩ => show win3_4.index t (0 : Fin 2) * 1 + 1 * 0 = 0; rw [e40]
    | ⟨1, _⟩ => show win3_4.index t (1 : Fin 2) * 64 + 1 * q.val = q.val; rw [e41]; omega
  have h5 : ∀ k : Fin 64, iblk3 V c 5 t (ix2 k q) = (V c main_arg13 : S64x64.Idx → EReal) (ix2 k q) := fun k => by
    unfold iblk3; rw [View.read_apply]
    refine congrArg (V c main_arg13 : S64x64.Idx → EReal) (funext fun a => Fin.ext ?_)
    match a with
    | ⟨0, _⟩ => show win3_5.index t (0 : Fin 2) * 64 + 1 * k.val = k.val; rw [e50]; omega
    | ⟨1, _⟩ => show win3_5.index t (1 : Fin 2) * 64 + 1 * q.val = q.val; rw [e51]; omega
  simp only [h0, h1, h2, h3, h4, h5]

/-- An index of the result array is in point t's block iff each coordinate is in the block's range on its axis. -/
theorem mem_blk (t : Fin cfg3.N) (i : S50000x64.Idx) :
    i ∈ ((cfg3.win 6).blk t).view.set ↔ ∀ a : Fin 2, win3_6.index t a * S2000x64.size a ≤ (i a).val ∧ (i a).val < win3_6.index t a * S2000x64.size a + S2000x64.size a := by
  show i ∈ ((View.whole main_v55).slice (win3_6.rect t)).set ↔ _
  rw [View.set_slice_whole, Rect.mem_set_unit]
  exact Iff.rfl

/-- Row r lies in the block of point r / 2000: the 25 blocks tile the 50000 rows. -/
theorem cover (i : S50000x64.Idx) : ∃ t : Fin cfg3.N, (cfg3.win 6).flush t = true ∧ i ∈ ((cfg3.win 6).blk t).view.set := by
  have hi0 : (i 0).val < 50000 := (i 0).isLt
  have hi1 : (i 1).val < 64 := (i 1).isLt
  have hN : cfg3.N = 25 := N_3
  let t : Fin cfg3.N := ⟨(i 0).val / 2000, by rw [hN]; omega⟩
  obtain ⟨-, -, -, -, -, -, -, -, -, -, -, -, e60, e61⟩ := idx_facts t
  refine ⟨t, flush3_6 t, ?_⟩
  rw [mem_blk]
  intro a
  match a with
  | ⟨0, _⟩ => show win3_6.index t (0 : Fin 2) * 2000 ≤ (i 0).val ∧ (i 0).val < win3_6.index t (0 : Fin 2) * 2000 + 2000; rw [e60]; show (i 0).val / 2000 * 2000 ≤ (i 0).val ∧ (i 0).val < (i 0).val / 2000 * 2000 + 2000; omega
  | ⟨1, _⟩ => show win3_6.index t (1 : Fin 2) * 64 ≤ (i 1).val ∧ (i 1).val < win3_6.index t (1 : Fin 2) * 64 + 64; rw [e61]; omega

/-- THE RESULT ARRAY after the region: the layer of the arrays the region found. -/
theorem final (c : Dev nD) : (dat3 V c).arrAt 6 cfg3.N = G V c :=
  (dat3 V c).arrAt_eq_of_cover 6 (G V c) (fun t _ => flushed_eq V c t) (cover)

end Blocks

end Cert.KernelIdeal.Region3

end
-- ==== Proof.Region4.lean ====
/-
  Region 4: the closing affine map on blocks of 2000 rows. Entry (p, q) of what point t stores is entry
  (2000·t + p, q) of the affine map of the whole arrays; the 25 blocks tile the 50000 rows, so after the region the
  result array is the affine map of the arrays the region found.
-/
import proofs.«145187_j38766374814022_1_alg».proof.Proof.Gen.KernelIdeal.Frame
import proofs.«145187_j38766374814022_1_alg».proof.Proof.SageSpec
import proofs.«145187_j38766374814022_1_alg».proof.Proof.BodyOps
import Idealize.ShloMosaic.Lib.Pipeline.Value
import Idealize.ShloMosaic.Lib.Tactic

set_option maxRecDepth 16384

noncomputable section

open scoped BigOperators

namespace Cert.KernelIdeal.Region4

open Cert.KernelIdeal Cert.KernelIdeal.Gen Cert.KernelIdeal.BodyOps
open Idealize.ShloMosaic Idealize.ShloMosaic.TcCoe Idealize.ShloMosaic.ValueIdx Idealize.SL.Sem
open Idealize.ShloMosaic.Pipeline (Dat)

/-- What the body stores, at entry (p, q) of its block: the affine map's entry over the three loaded blocks. -/
theorem pay_at (x0 : Vec Ideal S2000x64 .f32) (x1 : Vec Ideal S64x32 .f32) (x2 : Vec Ideal S1x32 .f32) (p : Fin 2000) (q : Fin 32) :
    k4_pay1 x0 x1 x2 (ix2 p q) = Sage.affineAt x0 x1 x2 p q := by
  unfold k4_pay1
  simp only [shapeCast_self]
  show FloatOps.matmul (F := Ideal) _ none _ _ (constant S2000x32 .f32 0x00000000#32) (ix2 p q)
      + broadcastTo S2000x32 x2 _ (ix2 p q) = _
  rw [mm32_at, row32_at]
  rfl

section Blocks

variable (V : (c : Dev nD) → (b : Ref sig .tc) → Buf (Elt Ideal) ((c : Thread nD τ).loc b))

theorem hz : (![0, 0] : Fin 2 → Nat) = fun _ => 0 := funext fun a => by fin_cases a <;> rfl

/-- The affine map of the arrays the region finds. -/
abbrev G (c : Dev nD) : S50000x32.Idx → EReal :=
  Sage.affine (V c main_v55 : S50000x64.Idx → EReal) (V c main_arg14 : S64x32.Idx → EReal) (V c main_v56 : S1x32.Idx → EReal)

/-- The printed index maps over the 25 points: the row-blocked windows move with the point, the weights stay. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

set_option maxHeartbeats 1000000 in
/-- WHAT POINT t WRITES BACK is block t of the affine map of the whole arrays. -/
theorem flushed_eq (c : Dev nD) (t : Fin cfg4.N) :
    (dat4 V c).flushed 3 t = ((cfg4.win 3).blk t).view.read (Elt Ideal) (G V c) := by
  show (cfg4.win 3).cut (grid4.coords t) ((dat4 V c).after 3 t) = _
  rw [after4_3]
  unfold out4_3
  rw [View.canon_unit_zero hz]
  simp only [View.ld_unit_zero (S := S2000x64) hz, View.ld_unit_zero (S := S64x32) hz, View.ld_unit_zero (S := S1x32) hz]
  obtain ⟨e00, e01, e10, e11, e20, e21, e30, e31⟩ := idx_facts t
  have ht : t.val < 25 := Nat.lt_of_lt_of_eq t.isLt N_4
  funext j
  obtain ⟨p, q, rfl⟩ : ∃ (p : Fin 2000) (q : Fin 32), j = ix2 p q := ⟨j 0, j 1, eq_ix2 j⟩
  show k4_pay1 (iblk4 V c 0 t) (iblk4 V c 1 t) (iblk4 V c 2 t) (ix2 p q)
    = G V c (((cfg4.win 3).blk t).view.emb (ix2 p q))
  rw [pay_at]
  have hr : (((cfg4.win 3).blk t).view.emb (ix2 p q)) = ix2 (⟨t.val * 2000 + p.val, by omega⟩ : Fin 50000) q := by
    funext a; apply Fin.ext
    match a with
    | ⟨0, _⟩ => show win4_3.index t (0 : Fin 2) * 2000 + 1 * p.val = t.val * 2000 + p.val; rw [e30]; omega
    | ⟨1, _⟩ => show win4_3.index t (1 : Fin 2) * 32 + 1 * q.val = q.val; rw [e31]; omega
  rw [hr]
  show _ = Sage.affineAt _ _ _ (⟨t.val * 2000 + p.val, by omega⟩ : Fin 50000) q
  unfold Sage.affineAt
  have h0 : ∀ k : Fin 64, iblk4 V c 0 t (ix2 p k) = (V c main_v55 : S50000x64.Idx → EReal) (ix2 (⟨t.val * 2000 + p.val, by omega⟩ : Fin 50000) k) := fun k => by
    unfold iblk4; rw [View.read_apply]
    refine congrArg (V c main_v55 : S50000x64.Idx → EReal) (funext fun a => Fin.ext ?_)
    match a with
    | ⟨0, _⟩ => show win4_0.index t (0 : Fin 2) * 2000 + 1 * p.val = t.val * 2000 + p.val; rw [e00]; omega
    | ⟨1, _⟩ => show win4_0.index t (1 : Fin 2) * 64 + 1 * k.val = k.val; rw [e01]; omega
  have h1 : ∀ k : Fin 64, iblk4 V c 1 t (ix2 k q) = (V c main_arg14 : S64x32.Idx → EReal) (ix2 k q) := fun k => by
    unfold iblk4; rw [View.read_apply]
    refine congrArg (V c main_arg14 : S64x32.Idx → EReal) (funext fun a => Fin.ext ?_)
    match a with
    | ⟨0, _⟩ => show win4_1.index t (0 : Fin 2) * 64 + 1 * k.val = k.val; rw [e10]; omega
    | ⟨1, _⟩ => show win4_1.index t (1 : Fin 2) * 32 + 1 * q.val = q.val; rw [e11]; omega
  have h2 : iblk4 V c 2 t (ix2 (0 : Fin 1) q) = (V c main_v56 : S1x32.Idx → EReal) (ix2 (0 : Fin 1) q) := by
    unfold iblk4; rw [View.read_apply]
    refine congrArg (V c main_v56 : S1x32.Idx → EReal) (funext fun a => Fin.ext ?_)
    match a with
    | ⟨0, _⟩ => show win4_2.index t (0 : Fin 2) * 1 + 1 * 0 = 0; rw [e20]
    | ⟨1, _⟩ => show win4_2.index t (1 : Fin 2) * 32 + 1 * q.val = q.val; rw [e21]; omega
  simp only [h0, h1, h2]

/-- An index of the result array is in point t's block iff each coordinate is in the block's range on its axis. -/
theorem mem_blk (t : Fin cfg4.N) (i : S50000x32.Idx) :
    i ∈ ((cfg4.win 3).blk t).view.set ↔ ∀ a : Fin 2, win4_3.index t a * S2000x32.size a ≤ (i a).val ∧ (i a).val < win4_3.index t a * S2000x32.size a + S2000x32.size a := by
  show i ∈ ((View.whole main_v57).slice (win4_3.rect t)).set ↔ _
  rw [View.set_slice_whole, Rect.mem_set_unit]
  exact Iff.rfl

/-- Row r lies in the block of point r / 2000: the 25 blocks tile the 50000 rows. -/
theorem cover (i : S50000x32.Idx) : ∃ t : Fin cfg4.N, (cfg4.win 3).flush t = true ∧ i ∈ ((cfg4.win 3).blk t).view.set := by
  have hi0 : (i 0).val < 50000 := (i 0).isLt
  have hi1 : (i 1).val < 32 := (i 1).isLt
  have hN : cfg4.N = 25 := N_4
  let t : Fin cfg4.N := ⟨(i 0).val / 2000, by rw [hN]; omega⟩
  obtain ⟨-, -, -, -, -, -, e30, e31⟩ := idx_facts t
  refine ⟨t, flush4_3 t, ?_⟩
  rw [mem_blk]
  intro a
  match a with
  | ⟨0, _⟩ => show win4_3.index t (0 : Fin 2) * 2000 ≤ (i 0).val ∧ (i 0).val < win4_3.index t (0 : Fin 2) * 2000 + 2000; rw [e30]; show (i 0).val / 2000 * 2000 ≤ (i 0).val ∧ (i 0).val < (i 0).val / 2000 * 2000 + 2000; omega
  | ⟨1, _⟩ => show win4_3.index t (1 : Fin 2) * 32 ≤ (i 1).val ∧ (i 1).val < win4_3.index t (1 : Fin 2) * 32 + 32; rw [e31]; omega

/-- THE RESULT ARRAY after the region: the affine map of the arrays the region found. -/
theorem final (c : Dev nD) : (dat4 V c).arrAt 3 cfg4.N = G V c :=
  (dat4 V c).arrAt_eq_of_cover 3 (G V c) (fun t _ => flushed_eq V c t) (cover)

end Blocks

end Cert.KernelIdeal.Region4

end
-- ==== Proof.RefLayers.lean ====
/-
  The reference, one layer at a time. Each layer's run of host stages — the counts clamped at 1 and stretched across
  the features, the quotient, the neighbour product, the bias row repeated down the rows and added, the self product
  added, the rectifier — is, entry by entry, the layer of the specification applied to that layer's neighbour sums,
  counts and features. The reference adds the bias before the self product and the specification after it: addition
  of extended reals is commutative and associative, so the three-term sums agree whatever their values.
-/
import proofs.«145187_j38766374814022_1_alg».proof.Proof.Gen.ReferenceIdeal.Read
import proofs.«145187_j38766374814022_1_alg».proof.Proof.SageSpec

set_option maxRecDepth 16384

noncomputable section

open scoped BigOperators

namespace Cert.ReferenceIdeal.Layers

open Cert.ReferenceIdeal Cert.ReferenceIdeal.Gen Cert.ReferenceIdeal.Read
open Idealize.ShloMosaic Idealize.ShloMosaic.ValueIdx

variable (x0 : (⟨S50000x128, .f32⟩ : BufTy).Contents (Elt Ideal)) (x1 : (⟨S2x1600000, .i32⟩ : BufTy).Contents (Elt Ideal))
  (x2 : (⟨S128x64, .f32⟩ : BufTy).Contents (Elt Ideal)) (x3 : (⟨S64, .f32⟩ : BufTy).Contents (Elt Ideal))
  (x4 : (⟨S128x64, .f32⟩ : BufTy).Contents (Elt Ideal)) (x5 : (⟨S64x64, .f32⟩ : BufTy).Contents (Elt Ideal))
  (x6 : (⟨S64, .f32⟩ : BufTy).Contents (Elt Ideal)) (x7 x8 : (⟨S64x64, .f32⟩ : BufTy).Contents (Elt Ideal))
  (x9 : (⟨S64, .f32⟩ : BufTy).Contents (Elt Ideal)) (x10 x11 : (⟨S64x64, .f32⟩ : BufTy).Contents (Elt Ideal))
  (x12 : (⟨S64, .f32⟩ : BufTy).Contents (Elt Ideal)) (x13 : (⟨S64x64, .f32⟩ : BufTy).Contents (Elt Ideal))
  (x14 : (⟨S64x32, .f32⟩ : BufTy).Contents (Elt Ideal)) (x15 : (⟨S32, .f32⟩ : BufTy).Contents (Elt Ideal))

/-! ### Three small congruences on the extended reals -/

theorem max_congr_left {a b : EReal} (z : EReal) (h : a = b) : max a z = max b z := by rw [h]
theorem add_congr {a b c d : EReal} (h1 : a = b) (h2 : c = d) : a + c = b + d := by rw [h1, h2]
/-- The bias may be added before or after the self product. -/
theorem swap_last (a b c : EReal) : a + b + c = a + c + b := add_right_comm a b c

/-! ### The first layer -/

theorem e_l22 (r : Fin 50000) (q : Fin 64) (k : Fin 128) : lidx_main_v22 (ix2 r q) k = ix2 r k :=
  funext fun a => by match a with | ⟨0, _⟩ => rfl | ⟨1, _⟩ => rfl
theorem e_r22 (r : Fin 50000) (q : Fin 64) (k : Fin 128) : ridx_main_v22 (ix2 r q) k = ix2 k q :=
  funext fun a => by match a with | ⟨0, _⟩ => rfl | ⟨1, _⟩ => rfl
theorem e_l26 (r : Fin 50000) (q : Fin 64) (k : Fin 128) : lidx_main_v26 (ix2 r q) k = ix2 r k :=
  funext fun a => by match a with | ⟨0, _⟩ => rfl | ⟨1, _⟩ => rfl
theorem e_r26 (r : Fin 50000) (q : Fin 64) (k : Fin 128) : ridx_main_v26 (ix2 r q) k = ix2 k q :=
  funext fun a => by match a with | ⟨0, _⟩ => rfl | ⟨1, _⟩ => rfl
theorem e_20 (r : Fin 50000) (k : Fin 128) : idx_main_v20 (ix2 r k) = ix2 r (0 : Fin 1) :=
  funext fun a => by match a with | ⟨0, _⟩ => rfl | ⟨1, _⟩ => rfl
theorem e_24 (r : Fin 50000) (q : Fin 64) : idx_main_v24 (ix2 r q) = ix2 (0 : Fin 1) q :=
  funext fun a => by match a with | ⟨0, _⟩ => rfl | ⟨1, _⟩ => rfl

/-- The first layer: the reference's stages from the neighbour sums, the counts and the features to the layer's result are the
    layer's entries; its bias is added before the self product, the layer's after — one sum of three terms. -/
theorem layer1 : val_main_v28 (F := Ideal) x0 x1 x2 x3 x4
    = Sage.layerRelu (val_main_v13 (F := Ideal) x0 x1) (val_main_v17 (F := Ideal) x1) (x0) x2 (val_main_v23 (F := Ideal) x3) x4 := by
  funext i
  obtain ⟨r, q, rfl⟩ : ∃ (r : Fin 50000) (q : Fin 64), i = ix2 r q := ⟨i 0, i 1, eq_ix2 i⟩
  rw [val_main_v28_apply, val_main_call0_v0_apply, val_main_call0_cst_apply, val_main_v27_apply, val_main_v25_apply, val_main_v22_apply, val_main_v26_apply, val_main_v24_apply]
  simp only [Ideal.maximumf_def, Ideal.addf_def, Ideal.ofBits_def]
  rw [Sage.layerRelu_ix2]
  unfold Sage.layerAt Sage.meanAt
  refine (max_congr_left _ (swap_last _ _ _)).trans ?_
  refine max_congr_left _ (add_congr (add_congr (Finset.sum_congr rfl fun k _ => ?_) (Finset.sum_congr rfl fun k _ => ?_)) ?_)
  · rw [e_l22, e_r22, val_main_v21_apply, val_main_v20_apply, e_20, val_main_v19_apply, val_main_v18_apply, val_main_cst_3_apply]
    rfl
  · rw [e_l26, e_r26]
  · rw [e_24]

/-! ### The second layer -/

theorem e_l47 (r : Fin 50000) (q : Fin 64) (k : Fin 64) : lidx_main_v47 (ix2 r q) k = ix2 r k :=
  funext fun a => by match a with | ⟨0, _⟩ => rfl | ⟨1, _⟩ => rfl
theorem e_r47 (r : Fin 50000) (q : Fin 64) (k : Fin 64) : ridx_main_v47 (ix2 r q) k = ix2 k q :=
  funext fun a => by match a with | ⟨0, _⟩ => rfl | ⟨1, _⟩ => rfl
theorem e_l51 (r : Fin 50000) (q : Fin 64) (k : Fin 64) : lidx_main_v51 (ix2 r q) k = ix2 r k :=
  funext fun a => by match a with | ⟨0, _⟩ => rfl | ⟨1, _⟩ => rfl
theorem e_r51 (r : Fin 50000) (q : Fin 64) (k : Fin 64) : ridx_main_v51 (ix2 r q) k = ix2 k q :=
  funext fun a => by match a with | ⟨0, _⟩ => rfl | ⟨1, _⟩ => rfl
theorem e_45 (r : Fin 50000) (k : Fin 64) : idx_main_v45 (ix2 r k) = ix2 r (0 : Fin 1) :=
  funext fun a => by match a with | ⟨0, _⟩ => rfl | ⟨1, _⟩ => rfl
theorem e_49 (r : Fin 50000) (q : Fin 64) : idx_main_v49 (ix2 r q) = ix2 (0 : Fin 1) q :=
  funext fun a => by match a with | ⟨0, _⟩ => rfl | ⟨1, _⟩ => rfl

/-- The second layer: the reference's stages from the neighbour sums, the counts and the features to the layer's result are the
    layer's entries; its bias is added before the self product, the layer's after — one sum of three terms. -/
theorem layer2 : val_main_v53 (F := Ideal) x0 x1 x2 x3 x4 x5 x6 x7
    = Sage.layerRelu (val_main_v38 (F := Ideal) x0 x1 x2 x3 x4) (val_main_v42 (F := Ideal) x1) (val_main_v28 (F := Ideal) x0 x1 x2 x3 x4) x5 (val_main_v48 (F := Ideal) x6) x7 := by
  funext i
  obtain ⟨r, q, rfl⟩ : ∃ (r : Fin 50000) (q : Fin 64), i = ix2 r q := ⟨i 0, i 1, eq_ix2 i⟩
  rw [val_main_v53_apply, val_main_call1_v0_apply, val_main_call1_cst_apply, val_main_v52_apply, val_main_v50_apply, val_main_v47_apply, val_main_v51_apply, val_main_v49_apply]
  simp only [Ideal.maximumf_def, Ideal.addf_def, Ideal.ofBits_def]
  rw [Sage.layerRelu_ix2]
  unfold Sage.layerAt Sage.meanAt
  refine (max_congr_left _ (swap_last _ _ _)).trans ?_
  refine max_congr_left _ (add_congr (add_congr (Finset.sum_congr rfl fun k _ => ?_) (Finset.sum_congr rfl fun k _ => ?_)) ?_)
  · rw [e_l47, e_r47, val_main_v46_apply, val_main_v45_apply, e_45, val_main_v44_apply, val_main_v43_apply, val_main_cst_9_apply]
    rfl
  · rw [e_l51, e_r51]
  · rw [e_49]

/-! ### The third layer -/

theorem e_l72 (r : Fin 50000) (q : Fin 64) (k : Fin 64) : lidx_main_v72 (ix2 r q) k = ix2 r k :=
  funext fun a => by match a with | ⟨0, _⟩ => rfl | ⟨1, _⟩ => rfl
theorem e_r72 (r : Fin 50000) (q : Fin 64) (k : Fin 64) : ridx_main_v72 (ix2 r q) k = ix2 k q :=
  funext fun a => by match a with | ⟨0, _⟩ => rfl | ⟨1, _⟩ => rfl
theorem e_l76 (r : Fin 50000) (q : Fin 64) (k : Fin 64) : lidx_main_v76 (ix2 r q) k = ix2 r k :=
  funext fun a => by match a with | ⟨0, _⟩ => rfl | ⟨1, _⟩ => rfl
theorem e_r76 (r : Fin 50000) (q : Fin 64) (k : Fin 64) : ridx_main_v76 (ix2 r q) k = ix2 k q :=
  funext fun a => by match a with | ⟨0, _⟩ => rfl | ⟨1, _⟩ => rfl
theorem e_70 (r : Fin 50000) (k : Fin 64) : idx_main_v70 (ix2 r k) = ix2 r (0 : Fin 1) :=
  funext fun a => by match a with | ⟨0, _⟩ => rfl | ⟨1, _⟩ => rfl
theorem e_74 (r : Fin 50000) (q : Fin 64) : idx_main_v74 (ix2 r q) = ix2 (0 : Fin 1) q :=
  funext fun a => by match a with | ⟨0, _⟩ => rfl | ⟨1, _⟩ => rfl

/-- The third layer: the reference's stages from the neighbour sums, the counts and the features to the layer's result are the
    layer's entries; its bias is added before the self product, the layer's after — one sum of three terms. -/
theorem layer3 : val_main_v78 (F := Ideal) x0 x1 x2 x3 x4 x5 x6 x7 x8 x9 x10
    = Sage.layerRelu (val_main_v63 (F := Ideal) x0 x1 x2 x3 x4 x5 x6 x7) (val_main_v67 (F := Ideal) x1) (val_main_v53 (F := Ideal) x0 x1 x2 x3 x4 x5 x6 x7) x8 (val_main_v73 (F := Ideal) x9) x10 := by
  funext i
  obtain ⟨r, q, rfl⟩ : ∃ (r : Fin 50000) (q : Fin 64), i = ix2 r q := ⟨i 0, i 1, eq_ix2 i⟩
  rw [val_main_v78_apply, val_main_call2_v0_apply, val_main_call2_cst_apply, val_main_v77_apply, val_main_v75_apply, val_main_v72_apply, val_main_v76_apply, val_main_v74_apply]
  simp only [Ideal.maximumf_def, Ideal.addf_def, Ideal.ofBits_def]
  rw [Sage.layerRelu_ix2]
  unfold Sage.layerAt Sage.meanAt
  refine (max_congr_left _ (swap_last _ _ _)).trans ?_
  refine max_congr_left _ (add_congr (add_congr (Finset.sum_congr rfl fun k _ => ?_) (Finset.sum_congr rfl fun k _ => ?_)) ?_)
  · rw [e_l72, e_r72, val_main_v71_apply, val_main_v70_apply, e_70, val_main_v69_apply, val_main_v68_apply, val_main_cst_15_apply]
    rfl
  · rw [e_l76, e_r76]
  · rw [e_74]

/-! ### The fourth layer (no rectifier) -/

theorem e_l97 (r : Fin 50000) (q : Fin 64) (k : Fin 64) : lidx_main_v97 (ix2 r q) k = ix2 r k :=
  funext fun a => by match a with | ⟨0, _⟩ => rfl | ⟨1, _⟩ => rfl
theorem e_r97 (r : Fin 50000) (q : Fin 64) (k : Fin 64) : ridx_main_v97 (ix2 r q) k = ix2 k q :=
  funext fun a => by match a with | ⟨0, _⟩ => rfl | ⟨1, _⟩ => rfl
theorem e_l101 (r : Fin 50000) (q : Fin 64) (k : Fin 64) : lidx_main_v101 (ix2 r q) k = ix2 r k :=
  funext fun a => by match a with | ⟨0, _⟩ => rfl | ⟨1, _⟩ => rfl
theorem e_r101 (r : Fin 50000) (q : Fin 64) (k : Fin 64) : ridx_main_v101 (ix2 r q) k = ix2 k q :=
  funext fun a => by match a with | ⟨0, _⟩ => rfl | ⟨1, _⟩ => rfl
theorem e_95 (r : Fin 50000) (k : Fin 64) : idx_main_v95 (ix2 r k) = ix2 r (0 : Fin 1) :=
  funext fun a => by match a with | ⟨0, _⟩ => rfl | ⟨1, _⟩ => rfl
theorem e_99 (r : Fin 50000) (q : Fin 64) : idx_main_v99 (ix2 r q) = ix2 (0 : Fin 1) q :=
  funext fun a => by match a with | ⟨0, _⟩ => rfl | ⟨1, _⟩ => rfl

/-- The fourth layer (no rectifier): the reference's stages from the neighbour sums, the counts and the features to the layer's result are the
    layer's entries; its bias is added before the self product, the layer's after — one sum of three terms. -/
theorem layer4 : val_main_v102 (F := Ideal) x0 x1 x2 x3 x4 x5 x6 x7 x8 x9 x10 x11 x12 x13
    = Sage.layer (val_main_v88 (F := Ideal) x0 x1 x2 x3 x4 x5 x6 x7 x8 x9 x10) (val_main_v92 (F := Ideal) x1) (val_main_v78 (F := Ideal) x0 x1 x2 x3 x4 x5 x6 x7 x8 x9 x10) x11 (val_main_v98 (F := Ideal) x12) x13 := by
  funext i
  obtain ⟨r, q, rfl⟩ : ∃ (r : Fin 50000) (q : Fin 64), i = ix2 r q := ⟨i 0, i 1, eq_ix2 i⟩
  rw [val_main_v102_apply, val_main_v100_apply, val_main_v97_apply, val_main_v101_apply, val_main_v99_apply]
  simp only [Ideal.addf_def]
  rw [Sage.layer_ix2]
  unfold Sage.layerAt Sage.meanAt
  refine (swap_last _ _ _).trans ?_
  refine add_congr (add_congr (Finset.sum_congr rfl fun k _ => ?_) (Finset.sum_congr rfl fun k _ => ?_)) ?_
  · rw [e_l97, e_r97, val_main_v96_apply, val_main_v95_apply, e_95, val_main_v94_apply, val_main_v93_apply, val_main_cst_21_apply]
    rfl
  · rw [e_l101, e_r101]
  · rw [e_99]

/-! ### The closing affine map -/

theorem e_l103 (r : Fin 50000) (q : Fin 32) (k : Fin 64) : lidx_main_v103 (ix2 r q) k = ix2 r k :=
  funext fun a => by match a with | ⟨0, _⟩ => rfl | ⟨1, _⟩ => rfl
theorem e_r103 (r : Fin 50000) (q : Fin 32) (k : Fin 64) : ridx_main_v103 (ix2 r q) k = ix2 k q :=
  funext fun a => by match a with | ⟨0, _⟩ => rfl | ⟨1, _⟩ => rfl
theorem e_105 (r : Fin 50000) (q : Fin 32) : idx_main_v105 (ix2 r q) = ix2 (0 : Fin 1) q :=
  funext fun a => by match a with | ⟨0, _⟩ => rfl | ⟨1, _⟩ => rfl

/-- The reference's last three stages are the affine map of the fourth layer's result. -/
theorem closing : val_main_v106 (F := Ideal) x0 x1 x2 x3 x4 x5 x6 x7 x8 x9 x10 x11 x12 x13 x14 x15
    = Sage.affine (val_main_v102 (F := Ideal) x0 x1 x2 x3 x4 x5 x6 x7 x8 x9 x10 x11 x12 x13) x14 (val_main_v104 (F := Ideal) x15) := by
  funext i
  obtain ⟨r, q, rfl⟩ : ∃ (r : Fin 50000) (q : Fin 32), i = ix2 r q := ⟨i 0, i 1, eq_ix2 i⟩
  rw [val_main_v106_apply, val_main_v103_apply, val_main_v105_apply]
  simp only [Ideal.addf_def]
  rw [Sage.affine_ix2]
  unfold Sage.affineAt
  refine add_congr (Finset.sum_congr rfl fun k _ => ?_) ?_
  · rw [e_l103, e_r103]
  · rw [e_105]

end Cert.ReferenceIdeal.Layers

end
-- ==== Proof.LibRowVector.lean ====
/-
  A vector seen as a one-row matrix, two ways.

  A vector v of extent n becomes the 1×n matrix whose only row is v either by a reshape (the n entries in row-major
  order are the same n entries) or by a broadcast that places the vector's axis on the matrix's second axis. Both read
  entry (0, k) of the matrix as v k, so the two matrices are equal — at any extent n other than 1 (at n = 1 the
  broadcast's rule for an axis of extent one applies instead, and is not needed here). Stated over any entry type.
-/
import Idealize.ShloMosaic.Lib.Pipeline.Value

namespace Cert.RowVector

open Idealize.ShloMosaic

/-- The reshape of a vector of extent n to the 1×n matrix is the broadcast of the vector along the matrix's second
    axis: both have the vector as their only row. -/
theorem shapeCast_eq_broadcastInDim {α : Type} {n : ℕ} (hn : n ≠ 1) (v : (⟨1, ![n]⟩ : Shape).Idx → α)
    (hc : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ v hc = broadcastInDim ⟨2, ![1, n]⟩ ![1] hb v := by
  funext j
  refine (shapeCast_addUnit_apply ![n] v hc j).trans ?_
  exact (broadcastInDim_apply (![1] : Fin 1 → Fin 2) hb v j (fun a => j a.succ) (fun a => by
    match a with
    | ⟨0, _⟩ => show (j 1).val = if n = 1 then 0 else (j 1).val; rw [if_neg hn])).symm

end Cert.RowVector
-- ==== Proof.Bridge.lean ====
/-
  The idealized kernel's result is the reference's result. @main of the kernel alternates stretches of host operations
  — the gather of the features along the edges' sources, the scatter-add onto the edges' targets, the count of
  incoming edges, a bias vector seen as a row — with the five regions. Boundary by boundary, what each buffer that is
  still to be read holds is named by the reference's own stage of the same arrays: the host operations of the two
  programs are the same functions of the same operands, each region leaves the layer of the arrays it finds, and the
  reference's stages from one layer's inputs to its output are that layer too. The count of incoming edges, which
  the kernel computes once and the reference once per layer, is one function of the edge list.
-/
import proofs.«145187_j38766374814022_1_alg».proof.Proof.Gen.KernelIdeal.Frame
import proofs.«145187_j38766374814022_1_alg».proof.Proof.Gen.ReferenceIdeal.Read
import proofs.«145187_j38766374814022_1_alg».proof.Proof.SageSpec
import proofs.«145187_j38766374814022_1_alg».proof.Proof.Region0
import proofs.«145187_j38766374814022_1_alg».proof.Proof.Region1
import proofs.«145187_j38766374814022_1_alg».proof.Proof.Region2
import proofs.«145187_j38766374814022_1_alg».proof.Proof.Region3
import proofs.«145187_j38766374814022_1_alg».proof.Proof.Region4
import proofs.«145187_j38766374814022_1_alg».proof.Proof.RefLayers
import proofs.«145187_j38766374814022_1_alg».proof.Proof.LibRowVector
import Idealize.ShloMosaic.Lib.StableHlo.Run
import Idealize.ShloMosaic.Lib.Pipeline.Value

set_option maxRecDepth 16384

noncomputable section

namespace Cert.Bridge

open Cert.KernelIdeal Cert.KernelIdeal.Gen
open Idealize.ShloMosaic Idealize.ShloMosaic.TcCoe Idealize.SL.Sem Idealize.ShloMosaic.StableHlo
open Idealize.ShloMosaic.Pipeline (Dat)
open Cert.ReferenceIdeal.Read (val_main_v1 val_main_v3 val_main_v17 val_main_v13 val_main_v23 val_main_v28 val_main_v38 val_main_v48 val_main_v53 val_main_v63 val_main_v73 val_main_v78 val_main_v88 val_main_v98 val_main_v102 val_main_v104 val_main_v106)

variable (m : (ℓ : Loc nD τ sig) → Buf (Elt Ideal) ℓ) (ρ : Dev nD → PrngReg) (c : Dev nD)

/-! ### The argument arrays as launched -/
abbrev X0 := m ((c : Thread nD τ).loc main_arg0)
abbrev X1 := m ((c : Thread nD τ).loc main_arg1)
abbrev X2 := m ((c : Thread nD τ).loc main_arg2)
abbrev X3 := m ((c : Thread nD τ).loc main_arg3)
abbrev X4 := m ((c : Thread nD τ).loc main_arg4)
abbrev X5 := m ((c : Thread nD τ).loc main_arg5)
abbrev X6 := m ((c : Thread nD τ).loc main_arg6)
abbrev X7 := m ((c : Thread nD τ).loc main_arg7)
abbrev X8 := m ((c : Thread nD τ).loc main_arg8)
abbrev X9 := m ((c : Thread nD τ).loc main_arg9)
abbrev X10 := m ((c : Thread nD τ).loc main_arg10)
abbrev X11 := m ((c : Thread nD τ).loc main_arg11)
abbrev X12 := m ((c : Thread nD τ).loc main_arg12)
abbrev X13 := m ((c : Thread nD τ).loc main_arg13)
abbrev X14 := m ((c : Thread nD τ).loc main_arg14)
abbrev X15 := m ((c : Thread nD τ).loc main_arg15)

/-! ### Boundary 1: after the host operations before region 0 -/
set_option maxHeartbeats 4000000 in
theorem w1_v17 : W1 m ρ c (Proc.devRef .tc main_v17) = val_main_v13 (F := Ideal) (X0 m c) (X1 m c) := by
  show StableHlo.after hostOps0 (W0 m ρ c) (Proc.devRef .tc main_v17) = _
  after_results
  rfl
set_option maxHeartbeats 4000000 in
theorem w1_v7 : W1 m ρ c (Proc.devRef .tc main_v7) = val_main_v17 (F := Ideal) (X1 m c) := by
  show StableHlo.after hostOps0 (W0 m ρ c) (Proc.devRef .tc main_v7) = _
  after_results
  rfl
theorem w1_v18 : W1 m ρ c (Proc.devRef .tc main_v18) = val_main_v23 (F := Ideal) (X3 m c) := by
  show StableHlo.after hostOps0 (W0 m ρ c) (Proc.devRef .tc main_v18) = _
  after_results
  unfold val_main_v23
  exact Cert.RowVector.shapeCast_eq_broadcastInDim (n := 64) (by decide) _ _ _
set_option maxHeartbeats 4000000 in
theorem w1_v1 : W1 m ρ c (Proc.devRef .tc main_v1) = val_main_v1 (F := Ideal) (X1 m c) := by
  show StableHlo.after hostOps0 (W0 m ρ c) (Proc.devRef .tc main_v1) = _
  after_results
  rfl
set_option maxHeartbeats 4000000 in
theorem w1_v3 : W1 m ρ c (Proc.devRef .tc main_v3) = val_main_v3 (F := Ideal) (X1 m c) := by
  show StableHlo.after hostOps0 (W0 m ρ c) (Proc.devRef .tc main_v3) = _
  after_results
  rfl
theorem w1_arg0 : W1 m ρ c (Proc.devRef .tc main_arg0) = X0 m c := by
  show StableHlo.after hostOps0 (W0 m ρ c) (Proc.devRef .tc main_arg0) = _
  after_results
theorem w1_arg2 : W1 m ρ c (Proc.devRef .tc main_arg2) = X2 m c := by
  show StableHlo.after hostOps0 (W0 m ρ c) (Proc.devRef .tc main_arg2) = _
  after_results
theorem w1_arg4 : W1 m ρ c (Proc.devRef .tc main_arg4) = X4 m c := by
  show StableHlo.after hostOps0 (W0 m ρ c) (Proc.devRef .tc main_arg4) = _
  after_results
theorem w1_arg5 : W1 m ρ c (Proc.devRef .tc main_arg5) = X5 m c := by
  show StableHlo.after hostOps0 (W0 m ρ c) (Proc.devRef .tc main_arg5) = _
  after_results
theorem w1_arg6 : W1 m ρ c (Proc.devRef .tc main_arg6) = X6 m c := by
  show StableHlo.after hostOps0 (W0 m ρ c) (Proc.devRef .tc main_arg6) = _
  after_results
theorem w1_arg7 : W1 m ρ c (Proc.devRef .tc main_arg7) = X7 m c := by
  show StableHlo.after hostOps0 (W0 m ρ c) (Proc.devRef .tc main_arg7) = _
  after_results
theorem w1_arg8 : W1 m ρ c (Proc.devRef .tc main_arg8) = X8 m c := by
  show StableHlo.after hostOps0 (W0 m ρ c) (Proc.devRef .tc main_arg8) = _
  after_results
theorem w1_arg9 : W1 m ρ c (Proc.devRef .tc main_arg9) = X9 m c := by
  show StableHlo.after hostOps0 (W0 m ρ c) (Proc.devRef .tc main_arg9) = _
  after_results
theorem w1_arg10 : W1 m ρ c (Proc.devRef .tc main_arg10) = X10 m c := by
  show StableHlo.after hostOps0 (W0 m ρ c) (Proc.devRef .tc main_arg10) = _
  after_results
theorem w1_arg11 : W1 m ρ c (Proc.devRef .tc main_arg11) = X11 m c := by
  show StableHlo.after hostOps0 (W0 m ρ c) (Proc.devRef .tc main_arg11) = _
  after_results
theorem w1_arg12 : W1 m ρ c (Proc.devRef .tc main_arg12) = X12 m c := by
  show StableHlo.after hostOps0 (W0 m ρ c) (Proc.devRef .tc main_arg12) = _
  after_results
theorem w1_arg13 : W1 m ρ c (Proc.devRef .tc main_arg13) = X13 m c := by
  show StableHlo.after hostOps0 (W0 m ρ c) (Proc.devRef .tc main_arg13) = _
  after_results
theorem w1_arg14 : W1 m ρ c (Proc.devRef .tc main_arg14) = X14 m c := by
  show StableHlo.after hostOps0 (W0 m ρ c) (Proc.devRef .tc main_arg14) = _
  after_results
theorem w1_arg15 : W1 m ρ c (Proc.devRef .tc main_arg15) = X15 m c := by
  show StableHlo.after hostOps0 (W0 m ρ c) (Proc.devRef .tc main_arg15) = _
  after_results

/-! ### Boundary 2: after region 0 -/
theorem w2_v19 : W2 m ρ c (Proc.devRef .tc main_v19) = val_main_v28 (F := Ideal) (X0 m c) (X1 m c) (X2 m c) (X3 m c) (X4 m c) := by
  refine (W2_arr m ρ c 6).trans ((Cert.KernelIdeal.Region0.final (V1 m ρ) c).trans ?_)
  show Sage.layerRelu (W1 m ρ c (Proc.devRef .tc main_v17)) (W1 m ρ c (Proc.devRef .tc main_v7)) (W1 m ρ c (Proc.devRef .tc main_arg0)) (W1 m ρ c (Proc.devRef .tc main_arg2)) (W1 m ρ c (Proc.devRef .tc main_v18)) (W1 m ρ c (Proc.devRef .tc main_arg4)) = _
  rw [w1_v17 m ρ c, w1_v7 m ρ c, w1_arg0 m ρ c, w1_arg2 m ρ c, w1_v18 m ρ c, w1_arg4 m ρ c, Cert.ReferenceIdeal.Layers.layer1]
theorem w2_v7 : W2 m ρ c (Proc.devRef .tc main_v7) = val_main_v17 (F := Ideal) (X1 m c) :=
  ((W2_arr m ρ c 1).trans (((dat0 (V1 m ρ) c).arrAt_in 1 rfl _).trans (A_eq0 (V1 m ρ) c 1))).trans (w1_v7 m ρ c)
theorem w2_v1 : W2 m ρ c (Proc.devRef .tc main_v1) = val_main_v1 (F := Ideal) (X1 m c) :=
  (W2_of_ne m ρ c main_v1 (by decide)).trans (w1_v1 m ρ c)
theorem w2_v3 : W2 m ρ c (Proc.devRef .tc main_v3) = val_main_v3 (F := Ideal) (X1 m c) :=
  (W2_of_ne m ρ c main_v3 (by decide)).trans (w1_v3 m ρ c)
theorem w2_arg5 : W2 m ρ c (Proc.devRef .tc main_arg5) = X5 m c :=
  (W2_of_ne m ρ c main_arg5 (by decide)).trans (w1_arg5 m ρ c)
theorem w2_arg6 : W2 m ρ c (Proc.devRef .tc main_arg6) = X6 m c :=
  (W2_of_ne m ρ c main_arg6 (by decide)).trans (w1_arg6 m ρ c)
theorem w2_arg7 : W2 m ρ c (Proc.devRef .tc main_arg7) = X7 m c :=
  (W2_of_ne m ρ c main_arg7 (by decide)).trans (w1_arg7 m ρ c)
theorem w2_arg8 : W2 m ρ c (Proc.devRef .tc main_arg8) = X8 m c :=
  (W2_of_ne m ρ c main_arg8 (by decide)).trans (w1_arg8 m ρ c)
theorem w2_arg9 : W2 m ρ c (Proc.devRef .tc main_arg9) = X9 m c :=
  (W2_of_ne m ρ c main_arg9 (by decide)).trans (w1_arg9 m ρ c)
theorem w2_arg10 : W2 m ρ c (Proc.devRef .tc main_arg10) = X10 m c :=
  (W2_of_ne m ρ c main_arg10 (by decide)).trans (w1_arg10 m ρ c)
theorem w2_arg11 : W2 m ρ c (Proc.devRef .tc main_arg11) = X11 m c :=
  (W2_of_ne m ρ c main_arg11 (by decide)).trans (w1_arg11 m ρ c)
theorem w2_arg12 : W2 m ρ c (Proc.devRef .tc main_arg12) = X12 m c :=
  (W2_of_ne m ρ c main_arg12 (by decide)).trans (w1_arg12 m ρ c)
theorem w2_arg13 : W2 m ρ c (Proc.devRef .tc main_arg13) = X13 m c :=
  (W2_of_ne m ρ c main_arg13 (by decide)).trans (w1_arg13 m ρ c)
theorem w2_arg14 : W2 m ρ c (Proc.devRef .tc main_arg14) = X14 m c :=
  (W2_of_ne m ρ c main_arg14 (by decide)).trans (w1_arg14 m ρ c)
theorem w2_arg15 : W2 m ρ c (Proc.devRef .tc main_arg15) = X15 m c :=
  (W2_of_ne m ρ c main_arg15 (by decide)).trans (w1_arg15 m ρ c)

/-! ### Boundary 3: after the host operations before region 1 -/
set_option maxHeartbeats 4000000 in
theorem w3_v29 : W3 m ρ c (Proc.devRef .tc main_v29) = val_main_v38 (F := Ideal) (X0 m c) (X1 m c) (X2 m c) (X3 m c) (X4 m c) := by
  show StableHlo.after hostOps1 (W2 m ρ c) (Proc.devRef .tc main_v29) = _
  after_results
  rw [w2_v3 m ρ c, w2_v19 m ρ c, w2_v1 m ρ c]
  rfl
theorem w3_v30 : W3 m ρ c (Proc.devRef .tc main_v30) = val_main_v48 (F := Ideal) (X6 m c) := by
  show StableHlo.after hostOps1 (W2 m ρ c) (Proc.devRef .tc main_v30) = _
  after_results
  rw [w2_arg6 m ρ c]
  unfold val_main_v48
  exact Cert.RowVector.shapeCast_eq_broadcastInDim (n := 64) (by decide) _ _ _
theorem w3_v19 : W3 m ρ c (Proc.devRef .tc main_v19) = val_main_v28 (F := Ideal) (X0 m c) (X1 m c) (X2 m c) (X3 m c) (X4 m c) := by
  show StableHlo.after hostOps1 (W2 m ρ c) (Proc.devRef .tc main_v19) = _
  after_results
  rw [w2_v19 m ρ c]
theorem w3_v7 : W3 m ρ c (Proc.devRef .tc main_v7) = val_main_v17 (F := Ideal) (X1 m c) := by
  show StableHlo.after hostOps1 (W2 m ρ c) (Proc.devRef .tc main_v7) = _
  after_results
  rw [w2_v7 m ρ c]
theorem w3_v1 : W3 m ρ c (Proc.devRef .tc main_v1) = val_main_v1 (F := Ideal) (X1 m c) := by
  show StableHlo.after hostOps1 (W2 m ρ c) (Proc.devRef .tc main_v1) = _
  after_results
  rw [w2_v1 m ρ c]
theorem w3_v3 : W3 m ρ c (Proc.devRef .tc main_v3) = val_main_v3 (F := Ideal) (X1 m c) := by
  show StableHlo.after hostOps1 (W2 m ρ c) (Proc.devRef .tc main_v3) = _
  after_results
  rw [w2_v3 m ρ c]
theorem w3_arg5 : W3 m ρ c (Proc.devRef .tc main_arg5) = X5 m c := by
  show StableHlo.after hostOps1 (W2 m ρ c) (Proc.devRef .tc main_arg5) = _
  after_results
  rw [w2_arg5 m ρ c]
theorem w3_arg7 : W3 m ρ c (Proc.devRef .tc main_arg7) = X7 m c := by
  show StableHlo.after hostOps1 (W2 m ρ c) (Proc.devRef .tc main_arg7) = _
  after_results
  rw [w2_arg7 m ρ c]
theorem w3_arg8 : W3 m ρ c (Proc.devRef .tc main_arg8) = X8 m c := by
  show StableHlo.after hostOps1 (W2 m ρ c) (Proc.devRef .tc main_arg8) = _
  after_results
  rw [w2_arg8 m ρ c]
theorem w3_arg9 : W3 m ρ c (Proc.devRef .tc main_arg9) = X9 m c := by
  show StableHlo.after hostOps1 (W2 m ρ c) (Proc.devRef .tc main_arg9) = _
  after_results
  rw [w2_arg9 m ρ c]
theorem w3_arg10 : W3 m ρ c (Proc.devRef .tc main_arg10) = X10 m c := by
  show StableHlo.after hostOps1 (W2 m ρ c) (Proc.devRef .tc main_arg10) = _
  after_results
  rw [w2_arg10 m ρ c]
theorem w3_arg11 : W3 m ρ c (Proc.devRef .tc main_arg11) = X11 m c := by
  show StableHlo.after hostOps1 (W2 m ρ c) (Proc.devRef .tc main_arg11) = _
  after_results
  rw [w2_arg11 m ρ c]
theorem w3_arg12 : W3 m ρ c (Proc.devRef .tc main_arg12) = X12 m c := by
  show StableHlo.after hostOps1 (W2 m ρ c) (Proc.devRef .tc main_arg12) = _
  after_results
  rw [w2_arg12 m ρ c]
theorem w3_arg13 : W3 m ρ c (Proc.devRef .tc main_arg13) = X13 m c := by
  show StableHlo.after hostOps1 (W2 m ρ c) (Proc.devRef .tc main_arg13) = _
  after_results
  rw [w2_arg13 m ρ c]
theorem w3_arg14 : W3 m ρ c (Proc.devRef .tc main_arg14) = X14 m c := by
  show StableHlo.after hostOps1 (W2 m ρ c) (Proc.devRef .tc main_arg14) = _
  after_results
  rw [w2_arg14 m ρ c]
theorem w3_arg15 : W3 m ρ c (Proc.devRef .tc main_arg15) = X15 m c := by
  show StableHlo.after hostOps1 (W2 m ρ c) (Proc.devRef .tc main_arg15) = _
  after_results
  rw [w2_arg15 m ρ c]

/-! ### Boundary 4: after region 1 -/
theorem w4_v31 : W4 m ρ c (Proc.devRef .tc main_v31) = val_main_v53 (F := Ideal) (X0 m c) (X1 m c) (X2 m c) (X3 m c) (X4 m c) (X5 m c) (X6 m c) (X7 m c) := by
  refine (W4_arr m ρ c 6).trans ((Cert.KernelIdeal.Region1.final (V3 m ρ) c).trans ?_)
  show Sage.layerRelu (W3 m ρ c (Proc.devRef .tc main_v29)) (W3 m ρ c (Proc.devRef .tc main_v7)) (W3 m ρ c (Proc.devRef .tc main_v19)) (W3 m ρ c (Proc.devRef .tc main_arg5)) (W3 m ρ c (Proc.devRef .tc main_v30)) (W3 m ρ c (Proc.devRef .tc main_arg7)) = _
  rw [w3_v29 m ρ c, w3_v7 m ρ c, w3_v19 m ρ c, w3_arg5 m ρ c, w3_v30 m ρ c, w3_arg7 m ρ c, Cert.ReferenceIdeal.Layers.layer2]
  rfl
theorem w4_v7 : W4 m ρ c (Proc.devRef .tc main_v7) = val_main_v17 (F := Ideal) (X1 m c) :=
  ((W4_arr m ρ c 1).trans (((dat1 (V3 m ρ) c).arrAt_in 1 rfl _).trans (A_eq1 (V3 m ρ) c 1))).trans (w3_v7 m ρ c)
theorem w4_v1 : W4 m ρ c (Proc.devRef .tc main_v1) = val_main_v1 (F := Ideal) (X1 m c) :=
  (W4_of_ne m ρ c main_v1 (by decide)).trans (w3_v1 m ρ c)
theorem w4_v3 : W4 m ρ c (Proc.devRef .tc main_v3) = val_main_v3 (F := Ideal) (X1 m c) :=
  (W4_of_ne m ρ c main_v3 (by decide)).trans (w3_v3 m ρ c)
theorem w4_arg8 : W4 m ρ c (Proc.devRef .tc main_arg8) = X8 m c :=
  (W4_of_ne m ρ c main_arg8 (by decide)).trans (w3_arg8 m ρ c)
theorem w4_arg9 : W4 m ρ c (Proc.devRef .tc main_arg9) = X9 m c :=
  (W4_of_ne m ρ c main_arg9 (by decide)).trans (w3_arg9 m ρ c)
theorem w4_arg10 : W4 m ρ c (Proc.devRef .tc main_arg10) = X10 m c :=
  (W4_of_ne m ρ c main_arg10 (by decide)).trans (w3_arg10 m ρ c)
theorem w4_arg11 : W4 m ρ c (Proc.devRef .tc main_arg11) = X11 m c :=
  (W4_of_ne m ρ c main_arg11 (by decide)).trans (w3_arg11 m ρ c)
theorem w4_arg12 : W4 m ρ c (Proc.devRef .tc main_arg12) = X12 m c :=
  (W4_of_ne m ρ c main_arg12 (by decide)).trans (w3_arg12 m ρ c)
theorem w4_arg13 : W4 m ρ c (Proc.devRef .tc main_arg13) = X13 m c :=
  (W4_of_ne m ρ c main_arg13 (by decide)).trans (w3_arg13 m ρ c)
theorem w4_arg14 : W4 m ρ c (Proc.devRef .tc main_arg14) = X14 m c :=
  (W4_of_ne m ρ c main_arg14 (by decide)).trans (w3_arg14 m ρ c)
theorem w4_arg15 : W4 m ρ c (Proc.devRef .tc main_arg15) = X15 m c :=
  (W4_of_ne m ρ c main_arg15 (by decide)).trans (w3_arg15 m ρ c)

/-! ### Boundary 5: after the host operations before region 2 -/
set_option maxHeartbeats 4000000 in
theorem w5_v41 : W5 m ρ c (Proc.devRef .tc main_v41) = val_main_v63 (F := Ideal) (X0 m c) (X1 m c) (X2 m c) (X3 m c) (X4 m c) (X5 m c) (X6 m c) (X7 m c) := by
  show StableHlo.after hostOps2 (W4 m ρ c) (Proc.devRef .tc main_v41) = _
  after_results
  rw [w4_v3 m ρ c, w4_v31 m ρ c, w4_v1 m ρ c]
  rfl
theorem w5_v42 : W5 m ρ c (Proc.devRef .tc main_v42) = val_main_v73 (F := Ideal) (X9 m c) := by
  show StableHlo.after hostOps2 (W4 m ρ c) (Proc.devRef .tc main_v42) = _
  after_results
  rw [w4_arg9 m ρ c]
  unfold val_main_v73
  exact Cert.RowVector.shapeCast_eq_broadcastInDim (n := 64) (by decide) _ _ _
theorem w5_v31 : W5 m ρ c (Proc.devRef .tc main_v31) = val_main_v53 (F := Ideal) (X0 m c) (X1 m c) (X2 m c) (X3 m c) (X4 m c) (X5 m c) (X6 m c) (X7 m c) := by
  show StableHlo.after hostOps2 (W4 m ρ c) (Proc.devRef .tc main_v31) = _
  after_results
  rw [w4_v31 m ρ c]
theorem w5_v7 : W5 m ρ c (Proc.devRef .tc main_v7) = val_main_v17 (F := Ideal) (X1 m c) := by
  show StableHlo.after hostOps2 (W4 m ρ c) (Proc.devRef .tc main_v7) = _
  after_results
  rw [w4_v7 m ρ c]
theorem w5_v1 : W5 m ρ c (Proc.devRef .tc main_v1) = val_main_v1 (F := Ideal) (X1 m c) := by
  show StableHlo.after hostOps2 (W4 m ρ c) (Proc.devRef .tc main_v1) = _
  after_results
  rw [w4_v1 m ρ c]
theorem w5_v3 : W5 m ρ c (Proc.devRef .tc main_v3) = val_main_v3 (F := Ideal) (X1 m c) := by
  show StableHlo.after hostOps2 (W4 m ρ c) (Proc.devRef .tc main_v3) = _
  after_results
  rw [w4_v3 m ρ c]
theorem w5_arg8 : W5 m ρ c (Proc.devRef .tc main_arg8) = X8 m c := by
  show StableHlo.after hostOps2 (W4 m ρ c) (Proc.devRef .tc main_arg8) = _
  after_results
  rw [w4_arg8 m ρ c]
theorem w5_arg10 : W5 m ρ c (Proc.devRef .tc main_arg10) = X10 m c := by
  show StableHlo.after hostOps2 (W4 m ρ c) (Proc.devRef .tc main_arg10) = _
  after_results
  rw [w4_arg10 m ρ c]
theorem w5_arg11 : W5 m ρ c (Proc.devRef .tc main_arg11) = X11 m c := by
  show StableHlo.after hostOps2 (W4 m ρ c) (Proc.devRef .tc main_arg11) = _
  after_results
  rw [w4_arg11 m ρ c]
theorem w5_arg12 : W5 m ρ c (Proc.devRef .tc main_arg12) = X12 m c := by
  show StableHlo.after hostOps2 (W4 m ρ c) (Proc.devRef .tc main_arg12) = _
  after_results
  rw [w4_arg12 m ρ c]
theorem w5_arg13 : W5 m ρ c (Proc.devRef .tc main_arg13) = X13 m c := by
  show StableHlo.after hostOps2 (W4 m ρ c) (Proc.devRef .tc main_arg13) = _
  after_results
  rw [w4_arg13 m ρ c]
theorem w5_arg14 : W5 m ρ c (Proc.devRef .tc main_arg14) = X14 m c := by
  show StableHlo.after hostOps2 (W4 m ρ c) (Proc.devRef .tc main_arg14) = _
  after_results
  rw [w4_arg14 m ρ c]
theorem w5_arg15 : W5 m ρ c (Proc.devRef .tc main_arg15) = X15 m c := by
  show StableHlo.after hostOps2 (W4 m ρ c) (Proc.devRef .tc main_arg15) = _
  after_results
  rw [w4_arg15 m ρ c]

/-! ### Boundary 6: after region 2 -/
theorem w6_v43 : W6 m ρ c (Proc.devRef .tc main_v43) = val_main_v78 (F := Ideal) (X0 m c) (X1 m c) (X2 m c) (X3 m c) (X4 m c) (X5 m c) (X6 m c) (X7 m c) (X8 m c) (X9 m c) (X10 m c) := by
  refine (W6_arr m ρ c 6).trans ((Cert.KernelIdeal.Region2.final (V5 m ρ) c).trans ?_)
  show Sage.layerRelu (W5 m ρ c (Proc.devRef .tc main_v41)) (W5 m ρ c (Proc.devRef .tc main_v7)) (W5 m ρ c (Proc.devRef .tc main_v31)) (W5 m ρ c (Proc.devRef .tc main_arg8)) (W5 m ρ c (Proc.devRef .tc main_v42)) (W5 m ρ c (Proc.devRef .tc main_arg10)) = _
  rw [w5_v41 m ρ c, w5_v7 m ρ c, w5_v31 m ρ c, w5_arg8 m ρ c, w5_v42 m ρ c, w5_arg10 m ρ c, Cert.ReferenceIdeal.Layers.layer3]
  rfl
theorem w6_v7 : W6 m ρ c (Proc.devRef .tc main_v7) = val_main_v17 (F := Ideal) (X1 m c) :=
  ((W6_arr m ρ c 1).trans (((dat2 (V5 m ρ) c).arrAt_in 1 rfl _).trans (A_eq2 (V5 m ρ) c 1))).trans (w5_v7 m ρ c)
theorem w6_v1 : W6 m ρ c (Proc.devRef .tc main_v1) = val_main_v1 (F := Ideal) (X1 m c) :=
  (W6_of_ne m ρ c main_v1 (by decide)).trans (w5_v1 m ρ c)
theorem w6_v3 : W6 m ρ c (Proc.devRef .tc main_v3) = val_main_v3 (F := Ideal) (X1 m c) :=
  (W6_of_ne m ρ c main_v3 (by decide)).trans (w5_v3 m ρ c)
theorem w6_arg11 : W6 m ρ c (Proc.devRef .tc main_arg11) = X11 m c :=
  (W6_of_ne m ρ c main_arg11 (by decide)).trans (w5_arg11 m ρ c)
theorem w6_arg12 : W6 m ρ c (Proc.devRef .tc main_arg12) = X12 m c :=
  (W6_of_ne m ρ c main_arg12 (by decide)).trans (w5_arg12 m ρ c)
theorem w6_arg13 : W6 m ρ c (Proc.devRef .tc main_arg13) = X13 m c :=
  (W6_of_ne m ρ c main_arg13 (by decide)).trans (w5_arg13 m ρ c)
theorem w6_arg14 : W6 m ρ c (Proc.devRef .tc main_arg14) = X14 m c :=
  (W6_of_ne m ρ c main_arg14 (by decide)).trans (w5_arg14 m ρ c)
theorem w6_arg15 : W6 m ρ c (Proc.devRef .tc main_arg15) = X15 m c :=
  (W6_of_ne m ρ c main_arg15 (by decide)).trans (w5_arg15 m ρ c)

/-! ### Boundary 7: after the host operations before region 3 -/
set_option maxHeartbeats 4000000 in
theorem w7_v53 : W7 m ρ c (Proc.devRef .tc main_v53) = val_main_v88 (F := Ideal) (X0 m c) (X1 m c) (X2 m c) (X3 m c) (X4 m c) (X5 m c) (X6 m c) (X7 m c) (X8 m c) (X9 m c) (X10 m c) := by
  show StableHlo.after hostOps3 (W6 m ρ c) (Proc.devRef .tc main_v53) = _
  after_results
  rw [w6_v3 m ρ c, w6_v43 m ρ c, w6_v1 m ρ c]
  rfl
theorem w7_v54 : W7 m ρ c (Proc.devRef .tc main_v54) = val_main_v98 (F := Ideal) (X12 m c) := by
  show StableHlo.after hostOps3 (W6 m ρ c) (Proc.devRef .tc main_v54) = _
  after_results
  rw [w6_arg12 m ρ c]
  unfold val_main_v98
  exact Cert.RowVector.shapeCast_eq_broadcastInDim (n := 64) (by decide) _ _ _
theorem w7_v43 : W7 m ρ c (Proc.devRef .tc main_v43) = val_main_v78 (F := Ideal) (X0 m c) (X1 m c) (X2 m c) (X3 m c) (X4 m c) (X5 m c) (X6 m c) (X7 m c) (X8 m c) (X9 m c) (X10 m c) := by
  show StableHlo.after hostOps3 (W6 m ρ c) (Proc.devRef .tc main_v43) = _
  after_results
  rw [w6_v43 m ρ c]
theorem w7_v7 : W7 m ρ c (Proc.devRef .tc main_v7) = val_main_v17 (F := Ideal) (X1 m c) := by
  show StableHlo.after hostOps3 (W6 m ρ c) (Proc.devRef .tc main_v7) = _
  after_results
  rw [w6_v7 m ρ c]
theorem w7_arg11 : W7 m ρ c (Proc.devRef .tc main_arg11) = X11 m c := by
  show StableHlo.after hostOps3 (W6 m ρ c) (Proc.devRef .tc main_arg11) = _
  after_results
  rw [w6_arg11 m ρ c]
theorem w7_arg13 : W7 m ρ c (Proc.devRef .tc main_arg13) = X13 m c := by
  show StableHlo.after hostOps3 (W6 m ρ c) (Proc.devRef .tc main_arg13) = _
  after_results
  rw [w6_arg13 m ρ c]
theorem w7_arg14 : W7 m ρ c (Proc.devRef .tc main_arg14) = X14 m c := by
  show StableHlo.after hostOps3 (W6 m ρ c) (Proc.devRef .tc main_arg14) = _
  after_results
  rw [w6_arg14 m ρ c]
theorem w7_arg15 : W7 m ρ c (Proc.devRef .tc main_arg15) = X15 m c := by
  show StableHlo.after hostOps3 (W6 m ρ c) (Proc.devRef .tc main_arg15) = _
  after_results
  rw [w6_arg15 m ρ c]

/-! ### Boundary 8: after region 3 -/
theorem w8_v55 : W8 m ρ c (Proc.devRef .tc main_v55) = val_main_v102 (F := Ideal) (X0 m c) (X1 m c) (X2 m c) (X3 m c) (X4 m c) (X5 m c) (X6 m c) (X7 m c) (X8 m c) (X9 m c) (X10 m c) (X11 m c) (X12 m c) (X13 m c) := by
  refine (W8_arr m ρ c 6).trans ((Cert.KernelIdeal.Region3.final (V7 m ρ) c).trans ?_)
  show Sage.layer (W7 m ρ c (Proc.devRef .tc main_v53)) (W7 m ρ c (Proc.devRef .tc main_v7)) (W7 m ρ c (Proc.devRef .tc main_v43)) (W7 m ρ c (Proc.devRef .tc main_arg11)) (W7 m ρ c (Proc.devRef .tc main_v54)) (W7 m ρ c (Proc.devRef .tc main_arg13)) = _
  rw [w7_v53 m ρ c, w7_v7 m ρ c, w7_v43 m ρ c, w7_arg11 m ρ c, w7_v54 m ρ c, w7_arg13 m ρ c, Cert.ReferenceIdeal.Layers.layer4]
  rfl
theorem w8_arg14 : W8 m ρ c (Proc.devRef .tc main_arg14) = X14 m c :=
  (W8_of_ne m ρ c main_arg14 (by decide)).trans (w7_arg14 m ρ c)
theorem w8_arg15 : W8 m ρ c (Proc.devRef .tc main_arg15) = X15 m c :=
  (W8_of_ne m ρ c main_arg15 (by decide)).trans (w7_arg15 m ρ c)

/-! ### Boundary 9: after the host operations before region 4 -/
theorem w9_v56 : W9 m ρ c (Proc.devRef .tc main_v56) = val_main_v104 (F := Ideal) (X15 m c) := by
  show StableHlo.after hostOps4 (W8 m ρ c) (Proc.devRef .tc main_v56) = _
  after_results
  rw [w8_arg15 m ρ c]
  unfold val_main_v104
  exact Cert.RowVector.shapeCast_eq_broadcastInDim (n := 32) (by decide) _ _ _
theorem w9_v55 : W9 m ρ c (Proc.devRef .tc main_v55) = val_main_v102 (F := Ideal) (X0 m c) (X1 m c) (X2 m c) (X3 m c) (X4 m c) (X5 m c) (X6 m c) (X7 m c) (X8 m c) (X9 m c) (X10 m c) (X11 m c) (X12 m c) (X13 m c) := by
  show StableHlo.after hostOps4 (W8 m ρ c) (Proc.devRef .tc main_v55) = _
  after_results
  rw [w8_v55 m ρ c]
theorem w9_arg14 : W9 m ρ c (Proc.devRef .tc main_arg14) = X14 m c := by
  show StableHlo.after hostOps4 (W8 m ρ c) (Proc.devRef .tc main_arg14) = _
  after_results
  rw [w8_arg14 m ρ c]

/-! ### Boundary 10: after region 4 -/
theorem w10_v57 : W10 m ρ c (Proc.devRef .tc main_v57) = val_main_v106 (F := Ideal) (X0 m c) (X1 m c) (X2 m c) (X3 m c) (X4 m c) (X5 m c) (X6 m c) (X7 m c) (X8 m c) (X9 m c) (X10 m c) (X11 m c) (X12 m c) (X13 m c) (X14 m c) (X15 m c) := by
  refine (W10_arr m ρ c 3).trans ((Cert.KernelIdeal.Region4.final (V9 m ρ) c).trans ?_)
  show Sage.affine (W9 m ρ c (Proc.devRef .tc main_v55)) (W9 m ρ c (Proc.devRef .tc main_arg14)) (W9 m ρ c (Proc.devRef .tc main_v56)) = _
  rw [w9_v55 m ρ c, w9_arg14 m ρ c, w9_v56 m ρ c, Cert.ReferenceIdeal.Layers.closing]

end Cert.Bridge

end
-- ==== Proof.Claims.lean ====
/-
  The five claims. The two kernel programs' frames are the generated frame certificates; the reference's frame is its
  generated run with the result dropped; the idealization rewrote nothing, so there is nothing to preserve. For the
  value claim both programs run from memories that agree on the sixteen arguments: the kernel's result array ends at
  the last boundary's contents, which is the reference's last stage of the kernel's arguments, and the reference's
  result is that same stage of its own arguments.
-/
import proofs.«145187_j38766374814022_1_alg».proof.Defs
import proofs.«145187_j38766374814022_1_alg».proof.Proof.Gen.Kernel.Frame
import proofs.«145187_j38766374814022_1_alg».proof.Proof.Gen.KernelIdeal.Frame
import proofs.«145187_j38766374814022_1_alg».proof.Proof.Gen.ReferenceIdeal.Run
import proofs.«145187_j38766374814022_1_alg».proof.Proof.Gen.ReferenceIdeal.Read
import proofs.«145187_j38766374814022_1_alg».proof.Proof.Gen.Pre_finite_inputs
import proofs.«145187_j38766374814022_1_alg».proof.Proof.KernelRun
import proofs.«145187_j38766374814022_1_alg».proof.Proof.Bridge

set_option maxRecDepth 16384

noncomputable section

open Idealize.ShloMosaic Idealize.ShloMosaic.TcCoe Idealize.SL.Sem

namespace Cert.Proof.Claims

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's last stage of the common arguments in their result arrays. -/
theorem algebraic : Cert.algebraic_KernelIdeal_ReferenceIdeal := by
  intro m ρ m' ρ' _ hagree
  refine ⟨fun c => Cert.KernelIdeal.Gen.W10 m ρ c (Proc.devRef .tc Cert.KernelIdeal.main_v57),
    Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Gen.W10 m ρ c (Proc.devRef .tc Cert.KernelIdeal.main_v57)
  rw [Cert.ReferenceIdeal.Read.val_main_v106_eq, Cert.Bridge.w10_v57 m ρ c]
  obtain ⟨h0, h1, h2, h3, h4, h5, h6, h7, h8, h9, h10, h11, h12, h13, h14, h15⟩ := hagree c
  rw [h0, h1, h2, h3, h4, h5, h6, h7, h8, h9, h10, h11, h12, h13, h14, h15]

end Cert.Proof.Claims

end
-- ==== Proof.lean ====
/-
  The certificate: a four-layer neighbour-mean network and a closing affine map, computed by five tiled matrix kernels
  among gathers and scatter-adds along the edge list, against the same network written as whole-array operations.
  On the extended reals each tiled kernel leaves the layer of the whole arrays it finds (blocks of 2000 rows tile the
  50000 nodes; a changed float format is the identity; a product into a zero accumulator is the sum over the
  contracted axis), the operations between the kernels are the reference's own, and the one difference in the
  arithmetic — the bias added after the self product instead of before — is the commutativity and associativity of
  addition, which holds at every extended real, so the finiteness of the inputs is never used.
-/
import proofs.«145187_j38766374814022_1_alg».proof.Defs
import proofs.«145187_j38766374814022_1_alg».proof.Proof.Gen.Kernel
import proofs.«145187_j38766374814022_1_alg».proof.Proof.Gen.Kernel.Skeleton
import proofs.«145187_j38766374814022_1_alg».proof.Proof.Gen.Kernel.Launch
import proofs.«145187_j38766374814022_1_alg».proof.Proof.Gen.Kernel.Points
import proofs.«145187_j38766374814022_1_alg».proof.Proof.Gen.Kernel.Frame
import proofs.«145187_j38766374814022_1_alg».proof.Proof.Gen.KernelIdeal
import proofs.«145187_j38766374814022_1_alg».proof.Proof.Gen.KernelIdeal.Skeleton
import proofs.«145187_j38766374814022_1_alg».proof.Proof.Gen.KernelIdeal.Launch
import proofs.«145187_j38766374814022_1_alg».proof.Proof.Gen.KernelIdeal.Points
import proofs.«145187_j38766374814022_1_alg».proof.Proof.Gen.KernelIdeal.Frame
import proofs.«145187_j38766374814022_1_alg».proof.Proof.Gen.ReferenceIdeal
import proofs.«145187_j38766374814022_1_alg».proof.Proof.Gen.ReferenceIdeal.Run
import proofs.«145187_j38766374814022_1_alg».proof.Proof.Gen.ReferenceIdeal.Read
import proofs.«145187_j38766374814022_1_alg».proof.Proof.Gen.Pre_finite_inputs
import proofs.«145187_j38766374814022_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
